-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S2x800000 : Shape := ⟨2, ![2, 800000]⟩
abbrev S800000 : Shape := ⟨1, ![800000]⟩
abbrev S50x200 : Shape := ⟨2, ![50, 200]⟩
abbrev S474x50 : Shape := ⟨2, ![474, 50]⟩
abbrev S200x200 : Shape := ⟨2, ![200, 200]⟩
abbrev S1x200 : Shape := ⟨2, ![1, 200]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S50x200 : S_.BroadcastsInDim S50x200 (![] : Fin 0 → Fin S50x200.rank)
  reducesTo_S50x200_S_d0_1 : S50x200.ReducesTo [0, 1] S_
  bcast_S_S474x50 : S_.BroadcastsInDim S474x50 (![] : Fin 0 → Fin S474x50.rank)
  reducesTo_S474x50_S_d0_1 : S474x50.ReducesTo [0, 1] S_
  bcast_S_S200x200 : S_.BroadcastsInDim S200x200 (![] : Fin 0 → Fin S200x200.rank)
  reducesTo_S200x200_S_d0_1 : S200x200.ReducesTo [0, 1] S_
  bcast_S_S1x200 : S_.BroadcastsInDim S1x200 (![] : Fin 0 → Fin S1x200.rank)
  reducesTo_S1x200_S_d0_1 : S1x200.ReducesTo [0, 1] S_

variable [Facts]

def fn_part2 {F : FTy → Type} [FloatOps F] (main_arg9 : FVec F S200x200 .f32) (main_v33 : IVec S_ 1) : IVec S_ 1 :=
  let main_v34 : FVec F S200x200 .f32 := Host.absf main_arg9
  let main_cst_12 : FVec F S_ .f32 := constant S_ .f32 0x7F800000#32
  let main_v35 : FVec F S200x200 .f32 := broadcastInDim S200x200 ![] bcast_S_S200x200 main_cst_12
  let main_v36 : IVec S200x200 1 := cmpf .olt main_v34 main_v35
  let main_c_13 : IVec S_ 1 := constantI S_ 1 1#1
  let main_v37 : IVec S_ 1 := (fun x v => Host.reduce IntOp.andi x v reducesTo_S200x200_S_d0_1 h_S_) main_v36 main_c_13
  let main_v38 : IVec S_ 1 := andi main_v33 main_v37
  main_v38

def fn_part1 {F : FTy → Type} [FloatOps F] (main_arg6 : FVec F S1x200 .f32) (main_arg7 : FVec F S200x200 .f32) (main_arg8 : FVec F S200x200 .f32) (main_arg9 : FVec F S200x200 .f32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S1x200 .f32 := Host.absf main_arg6
  let main_cst_6 : FVec F S_ .f32 := constant S_ .f32 0x7F800000#32
  let main_v20 : FVec F S1x200 .f32 := broadcastInDim S1x200 ![] bcast_S_S1x200 main_cst_6
  let main_v21 : IVec S1x200 1 := cmpf .olt main_v19 main_v20
  let main_c_7 : IVec S_ 1 := constantI S_ 1 1#1
  let main_v22 : IVec S_ 1 := (fun x v => Host.reduce IntOp.andi x v reducesTo_S1x200_S_d0_1 h_S_) main_v21 main_c_7
  let main_v23 : IVec S_ 1 := andi main_v18 main_v22
  let main_v24 : FVec F S200x200 .f32 := Host.absf main_arg7
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200x200 .f32 := Host.absf main_arg8
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg9 main_v33

def fn {F : FTy → Type} [FloatOps F] (main_arg0 : FVec F S100000x200 .f32) (main_arg1 : IVec S2x800000 32) (main_arg2 : IVec S800000 32) (main_arg3 : FVec F S50x200 .f32) (main_arg4 : FVec F S474x50 .f32) (main_arg5 : FVec F S200x200 .f32) (main_arg6 : FVec F S1x200 .f32) (main_arg7 : FVec F S200x200 .f32) (main_arg8 : FVec F S200x200 .f32) (main_arg9 : FVec F S200x200 .f32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S50x200 .f32 := Host.absf main_arg3
  let main_cst_0 : FVec F S_ .f32 := constant S_ .f32 0x7F800000#32
  let main_v5 : FVec F S50x200 .f32 := broadcastInDim S50x200 ![] bcast_S_S50x200 main_cst_0
  let main_v6 : IVec S50x200 1 := cmpf .olt main_v4 main_v5
  let main_c_1 : IVec S_ 1 := constantI S_ 1 1#1
  let main_v7 : IVec S_ 1 := (fun x v => Host.reduce IntOp.andi x v reducesTo_S50x200_S_d0_1 h_S_) main_v6 main_c_1
  let main_v8 : IVec S_ 1 := andi main_v3 main_v7
  let main_v9 : FVec F S474x50 .f32 := Host.absf main_arg4
  let main_cst_2 : FVec F S_ .f32 := constant S_ .f32 0x7F800000#32
  let main_v10 : FVec F S474x50 .f32 := broadcastInDim S474x50 ![] bcast_S_S474x50 main_cst_2
  let main_v11 : IVec S474x50 1 := cmpf .olt main_v9 main_v10
  let main_c_3 : IVec S_ 1 := constantI S_ 1 1#1
  let main_v12 : IVec S_ 1 := (fun x v => Host.reduce IntOp.andi x v reducesTo_S474x50_S_d0_1 h_S_) main_v11 main_c_3
  let main_v13 : IVec S_ 1 := andi main_v8 main_v12
  let main_v14 : FVec F S200x200 .f32 := Host.absf main_arg5
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg6 main_arg7 main_arg8 main_arg9 main_v13 main_v16
-- ==== Kernel.lean ====
abbrev S100000x200 : Shape := ⟨2, ![100000, 200]⟩
abbrev S2x800000 : Shape := ⟨2, ![2, 800000]⟩
abbrev S800000 : Shape := ⟨1, ![800000]⟩
abbrev S50x200 : Shape := ⟨2, ![50, 200]⟩
abbrev S474x50 : Shape := ⟨2, ![474, 50]⟩
abbrev S200x200 : Shape := ⟨2, ![200, 200]⟩
abbrev S1x200 : Shape := ⟨2, ![1, 200]⟩
abbrev S474x200 : Shape := ⟨2, ![474, 200]⟩
abbrev S475x200 : Shape := ⟨2, ![475, 200]⟩
abbrev S2x400000 : Shape := ⟨2, ![2, 400000]⟩
abbrev S400000 : Shape := ⟨1, ![400000]⟩
abbrev S1x400000 : Shape := ⟨2, ![1, 400000]⟩
abbrev S_ : Shape := ⟨0, ![]⟩
abbrev S100000 : Shape := ⟨1, ![100000]⟩
abbrev S400000x1 : Shape := ⟨2, ![400000, 1]⟩
abbrev S400000x200 : Shape := ⟨2, ![400000, 200]⟩
abbrev S2000x200 : Shape := ⟨2, ![2000, 200]⟩
abbrev S2000x1 : Shape := ⟨2, ![2000, 1]⟩

abbrev nBuf : Space → Nat
  | .hbm => 154
  | .vmem => 28
  | .smem => 0
  | _ => 0

abbrev hbmTy0_0 (i : Nat) : BufTy := match i % 128 with
  | 0 => ⟨S100000x200, .f32⟩
  | 1 => ⟨S2x800000, .i32⟩
  | 2 => ⟨S800000, .i32⟩
  | 3 => ⟨S50x200, .f32⟩
  | 4 => ⟨S474x50, .f32⟩
  | 5 => ⟨S200x200, .f32⟩
  | 6 => ⟨S1x200, .f32⟩
  | 7 => ⟨S200x200, .f32⟩
  | 8 => ⟨S200x200, .f32⟩
  | 9 => ⟨S200x200, .f32⟩
  | 10 => ⟨S474x200, .f32⟩
  | 11 => ⟨S475x200, .f32⟩
  | 12 => ⟨S2x400000, .i32⟩
  | 13 => ⟨S2x400000, .i32⟩
  | 14 => ⟨S400000, .i32⟩
  | 15 => ⟨S400000, .i32⟩
  | 16 => ⟨S1x400000, .i32⟩
  | 17 => ⟨S400000, .i32⟩
  | 18 => ⟨S1x400000, .i32⟩
  | 19 => ⟨S400000, .i32⟩
  | 20 => ⟨S_, .f32⟩
  | 21 => ⟨S400000, .f32⟩
  | 22 => ⟨S_, .f32⟩
  | 23 => ⟨S100000, .f32⟩
  | 24 => ⟨S400000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000, .f32⟩
  | 55 => ⟨S400000, .f32⟩
  | 56 => ⟨S1x400000, .i32⟩
  | 57 => ⟨S400000, .i32⟩
  | 58 => ⟨S1x400000, .i32⟩
  | 59 => ⟨S400000, .i32⟩
  | 60 => ⟨S_, .f32⟩
  | 61 => ⟨S400000, .f32⟩
  | 62 => ⟨S_, .f32⟩
  | 63 => ⟨S100000, .f32⟩
  | 64 => ⟨S400000x1, .i32⟩
  | 65 => ⟨S100000, .f32⟩
  | 66 => ⟨S_, .f32⟩
  | 67 => ⟨S100000, .f32⟩
  | 68 => ⟨S100000, .i1⟩
  | 69 => ⟨S_, .f32⟩
  | 70 => ⟨S100000, .f32⟩
  | 71 => ⟨S100000, .f32⟩
  | 72 => ⟨S100000, .f32⟩
  | 73 => ⟨S_, .f32⟩
  | 74 => ⟨S_, .f32⟩
  | 75 => ⟨S100000, .f32⟩
  | 76 => ⟨S100000, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000, .f32⟩
  | 95 => ⟨S400000, .f32⟩
  | 96 => ⟨S1x400000, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x200, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S400000x200, .f32⟩
  | 116 => ⟨S1x400000, .i32⟩
  | 117 => ⟨S400000, .i32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x200, .f32⟩
  | 127 => ⟨S_, .i32⟩
  | _ => ⟨S100000x200, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x200, .f32⟩
  | 8 => ⟨S400000x1, .f32⟩
  | 9 => ⟨S400000x200, .f32⟩
  | 10 => ⟨S400000x1, .f32⟩
  | 11 => ⟨S400000x200, .f32⟩
  | 12 => ⟨S1x400000, .i32⟩
  | 13 => ⟨S400000, .i32⟩
  | 14 => ⟨S_, .f32⟩
  | 15 => ⟨S100000x200, .f32⟩
  | 16 => ⟨S400000x1, .i32⟩
  | 17 => ⟨S100000x200, .f32⟩
  | 18 => ⟨S1x400000, .i32⟩
  | 19 => ⟨S400000, .i32⟩
  | 20 => ⟨S_, .f32⟩
  | 21 => ⟨S100000x200, .f32⟩
  | 22 => ⟨S400000x1, .i32⟩
  | 23 => ⟨S100000x200, .f32⟩
  | 24 => ⟨S100000x200, .f32⟩
  | 25 => ⟨S475x200, .f32⟩
  | _ => ⟨S100000x200, .f32⟩

abbrev hbmTy (i : Nat) : BufTy := match i / 128 with
  | 0 => hbmTy0_0 i
  | 1 => hbmTy0_1 i
  | _ => ⟨S100000x200, .f32⟩

abbrev bufTy : (tb : Table) → Fin (tcTables nBuf tb) → BufTy
  | .hbm, ⟨i, _⟩ => hbmTy i
  | .local _ .vmem, ⟨0, _⟩ => ⟨S2000x200, .f32⟩
  | .local _ .vmem, ⟨1, _⟩ => ⟨S2000x200, .f32⟩
  | .local _ .vmem, ⟨2, _⟩ => ⟨S2000x200, .f32⟩
  | .local _ .vmem, ⟨3, _⟩ => ⟨S2000x200, .f32⟩
  | .local _ .vmem, ⟨4, _⟩ => ⟨S2000x1, .f32⟩
  | .local _ .vmem, ⟨5, _⟩ => ⟨S2000x1, .f32⟩
  | .local _ .vmem, ⟨6, _⟩ => ⟨S200x200, .f32⟩
  | .local _ .vmem, ⟨7, _⟩ => ⟨S2000x200, .f32⟩
  | .local _ .vmem, ⟨8, _⟩ => ⟨S2000x200, .f32⟩
  | .local _ .vmem, ⟨9, _⟩ => ⟨S2000x200, .f32⟩
  | .local _ .vmem, ⟨10, _⟩ => ⟨S2000x200, .f32⟩
  | .local _ .vmem, ⟨11, _⟩ => ⟨S2000x200, .f32⟩
  | .local _ .vmem, ⟨12, _⟩ => ⟨S2000x200, .f32⟩
  | .local _ .vmem, ⟨13, _⟩ => ⟨S2000x1, .f32⟩
  | .local _ .vmem, ⟨14, _⟩ => ⟨S2000x1, .f32⟩
  | .local _ .vmem, ⟨15, _⟩ => ⟨S200x200, .f32⟩
  | .local _ .vmem, ⟨16, _⟩ => ⟨S2000x200, .f32⟩
  | .local _ .vmem, ⟨17, _⟩ => ⟨S2000x200, .f32⟩
  | .local _ .vmem, ⟨18, _⟩ => ⟨S2000x200, .f32⟩
  | .local _ .vmem, ⟨19, _⟩ => ⟨S2000x200, .f32⟩
  | .local _ .vmem, ⟨20, _⟩ => ⟨S2000x200, .f32⟩
  | .local _ .vmem, ⟨21, _⟩ => ⟨S2000x200, .f32⟩
  | .local _ .vmem, ⟨22, _⟩ => ⟨S2000x200, .f32⟩
  | .local _ .vmem, ⟨23, _⟩ => ⟨S2000x200, .f32⟩
  | .local _ .vmem, ⟨24, _⟩ => ⟨S1x200, .f32⟩
  | .local _ .vmem, ⟨25, _⟩ => ⟨S200x200, .f32⟩
  | .local _ .vmem, ⟨26, _⟩ => ⟨S2000x200, .f32⟩
  | .local _ .vmem, ⟨27, _⟩ => ⟨S2000x200, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_c_19 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_c_21 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_22 : Ref sig .tc := ⟨.hbm, 127, rfl⟩
abbrev main_v89 : Ref sig .tc := ⟨.hbm, 128, rfl⟩
abbrev main_v90 : Ref sig .tc := ⟨.hbm, 129, rfl⟩
abbrev main_c_23 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_24 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_25 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S200x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S200x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S200x200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S474x200_S1x200_S475x200_d0 : Shape.Concatenates [S474x200, S1x200] S475x200 0
  slices_S2x800000_S2x400000_0_0 : S2x800000.Slices ![0, 0] S2x400000
  slices_S2x800000_S2x400000_0_400000 : S2x800000.Slices ![0, 400000] S2x400000
  slices_S800000_S400000_0 : S800000.Slices ![0] S400000
  slices_S800000_S400000_400000 : S800000.Slices ![400000] S400000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  shapeCasts_S400000_S400000x1 : S400000.ShapeCasts S400000x1
  inb_S2000x200_S2000x200_0_0 : ∀ a, (![0, 0] : Fin 2 → Nat) a + S2000x200.size a ≤ S2000x200.size a
  h_S2000x200 : 0 < S2000x200.numel
  shapeCasts_S2000x200_S2000x200 : S2000x200.ShapeCasts S2000x200
  bitsLt_bf16_f32 : FTy.bits .bf16 < FTy.bits .f32
  inb_S200x200_S200x200_0_0 : ∀ a, (![0, 0] : Fin 2 → Nat) a + S200x200.size a ≤ S200x200.size a
  h_S200x200 : 0 < S200x200.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x200 : S2000x1.Broadcasts S2000x200
  bcast_S_S100000x200 : S_.BroadcastsInDim S100000x200 (![] : Fin 0 → Fin S100000x200.rank)
  inb_S1x200_S1x200_0_0 : ∀ a, (![0, 0] : Fin 2 → Nat) a + S1x200.size a ≤ S1x200.size a
  h_S1x200 : 0 < S1x200.numel
  broadcasts_S1x200_S2000x200 : S1x200.Broadcasts S2000x200
  dot_S474x50_S50x200_S474x200_1_0_0_1_n_n_wf : DotDims.WF S474x50 S50x200 S474x200 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x200_S400000x1_S400000x200_1_0_n_n_0_1_1200_wf : GatherDims.WF S100000x200 S400000x1 S400000x200 [1] [0] [] [0] [] 1 ![1, 200]
  gather_S475x200_S400000x1_S400000x200_1_0_n_n_0_1_1200_wf : GatherDims.WF S475x200 S400000x1 S400000x200 [1] [0] [] [0] [] 1 ![1, 200]
  dot_S2000x200_S200x200_S2000x200_1_0_0_1_n_n_wf : DotDims.WF S2000x200 S200x200 S2000x200 [1] [0] [0] [1] [] []
  scatter_S100000x200_S400000x1_S400000x200_1_0_0_1_wf : ScatterDims.WF S100000x200 S400000x1 S400000x200 [1] [0] [0] 1
  dot_S475x200_S200x200_S475x200_1_0_0_1_n_n_wf : DotDims.WF S475x200 S200x200 S475x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x200.size a ≤ S400000x200.size a
  hwx0_0 : ∀ i : grid0.Coords, EltTy.bits .f32 = 32 ∨ (Rect.block (s := S400000x200) S2000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x200.size a ≤ S400000x200.size a
  hwx0_1 : ∀ i : grid0.Coords, EltTy.bits .f32 = 32 ∨ (Rect.block (s := S400000x200) S2000x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S400000x1.size a
  hwx0_2 : ∀ i : grid0.Coords, EltTy.bits .f32 = 32 ∨ (Rect.block (s := S400000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x200.size a ≤ S200x200.size a
  hwx0_3 : ∀ i : grid0.Coords, EltTy.bits .f32 = 32 ∨ (Rect.block (s := S200x200) S200x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x200.size a ≤ S400000x200.size a
  hwx0_4 : ∀ i : grid0.Coords, EltTy.bits .f32 = 32 ∨ (Rect.block (s := S400000x200) S2000x200.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x200.size a ≤ S400000x200.size a
  hwx1_0 : ∀ i : grid1.Coords, EltTy.bits .f32 = 32 ∨ (Rect.block (s := S400000x200) S2000x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x200.size a ≤ S400000x200.size a
  hwx1_1 : ∀ i : grid1.Coords, EltTy.bits .f32 = 32 ∨ (Rect.block (s := S400000x200) S2000x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S400000x1.size a
  hwx1_2 : ∀ i : grid1.Coords, EltTy.bits .f32 = 32 ∨ (Rect.block (s := S400000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x200.size a ≤ S200x200.size a
  hwx1_3 : ∀ i : grid1.Coords, EltTy.bits .f32 = 32 ∨ (Rect.block (s := S200x200) S200x200.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x200.size a ≤ S400000x200.size a
  hwx1_4 : ∀ i : grid1.Coords, EltTy.bits .f32 = 32 ∨ (Rect.block (s := S400000x200) S2000x200.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x200.size a ≤ S100000x200.size a
  hwx2_0 : ∀ i : grid2.Coords, EltTy.bits .f32 = 32 ∨ (Rect.block (s := S100000x200) S2000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x200.size a ≤ S100000x200.size a
  hwx2_1 : ∀ i : grid2.Coords, EltTy.bits .f32 = 32 ∨ (Rect.block (s := S100000x200) S2000x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x200.size a ≤ S100000x200.size a
  hwx2_2 : ∀ i : grid2.Coords, EltTy.bits .f32 = 32 ∨ (Rect.block (s := S100000x200) S2000x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x200.size a ≤ S1x200.size a
  hwx2_3 : ∀ i : grid2.Coords, EltTy.bits .f32 = 32 ∨ (Rect.block (s := S1x200) S1x200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S200x200.size a ≤ S200x200.size a
  hwx2_4 : ∀ i : grid2.Coords, EltTy.bits .f32 = 32 ∨ (Rect.block (s := S200x200) S200x200.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x200.size a ≤ S100000x200.size a
  hwx2_5 : ∀ i : grid2.Coords, EltTy.bits .f32 = 32 ∨ (Rect.block (s := S100000x200) S2000x200.size (cc2_transform_5 i) (hinb2_5 i)).WholeWords (EltTy.packing .f32)

variable [Facts₀]

def dot_S474x50_S50x200_S474x200_1_0_0_1_n_n : DotDims S474x50 S50x200 S474x200 where
  lhsContracting := [1]
  rhsContracting := [0]
  lhsNonContracting := [0]
  rhsNonContracting := [1]
  lhsBatch := []
  rhsBatch := []
  wf := dot_S474x50_S50x200_S474x200_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x200_S400000x1_S400000x200_1_0_n_n_0_1_1200 : GatherDims S100000x200 S400000x1 S400000x200 where
  offsetDims := [1]
  collapsedSliceDims := [0]
  operandBatchingDims := []
  startIndicesBatchingDims := []
  startIndexMap := [0]
  indexVectorDim := 1
  sliceSizes := ![1, 200]
  wf := gather_S100000x200_S400000x1_S400000x200_1_0_n_n_0_1_1200_wf
def gather_S475x200_S400000x1_S400000x200_1_0_n_n_0_1_1200 : GatherDims S475x200 S400000x1 S400000x200 where
  offsetDims := [1]
  collapsedSliceDims := [0]
  operandBatchingDims := []
  startIndicesBatchingDims := []
  startIndexMap := [0]
  indexVectorDim := 1
  sliceSizes := ![1, 200]
  wf := gather_S475x200_S400000x1_S400000x200_1_0_n_n_0_1_1200_wf
def dot_S2000x200_S200x200_S2000x200_1_0_0_1_n_n : DotDims S2000x200 S200x200 S2000x200 where
  lhsContracting := [1]
  rhsContracting := [0]
  lhsNonContracting := [0]
  rhsNonContracting := [1]
  lhsBatch := []
  rhsBatch := []
  wf := dot_S2000x200_S200x200_S2000x200_1_0_0_1_n_n_wf
def scatter_S100000x200_S400000x1_S400000x200_1_0_0_1 : ScatterDims S100000x200 S400000x1 S400000x200 where
  updateWindowDims := [1]
  insertedWindowDims := [0]
  scatterDimsToOperandDims := [0]
  indexVectorDim := 1
  wf := scatter_S100000x200_S400000x1_S400000x200_1_0_0_1_wf
def dot_S475x200_S200x200_S475x200_1_0_0_1_n_n : DotDims S475x200 S200x200 S475x200 where
  lhsContracting := [1]
  rhsContracting := [0]
  lhsNonContracting := [0]
  rhsNonContracting := [1]
  lhsBatch := []
  rhsBatch := []
  wf := dot_S475x200_S200x200_S475x200_1_0_0_1_n_n_wf

abbrev win0_0 : Pipeline.Window sig grid0 :=
  Pipeline.Window.ofSpec (Memref.whole main_v72) S2000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S2000x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v96) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S200x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v97) S2000x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v88) S2000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v95) S2000x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v98) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S200x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v99) S2000x200.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S2000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v104) S2000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v109) S2000x200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S1x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S200x200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v110) S2000x200.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x200 : Shape := ⟨2, ![100000, 200]⟩
abbrev S2x800000 : Shape := ⟨2, ![2, 800000]⟩
abbrev S800000 : Shape := ⟨1, ![800000]⟩
abbrev S50x200 : Shape := ⟨2, ![50, 200]⟩
abbrev S474x50 : Shape := ⟨2, ![474, 50]⟩
abbrev S200x200 : Shape := ⟨2, ![200, 200]⟩
abbrev S1x200 : Shape := ⟨2, ![1, 200]⟩
abbrev S474x200 : Shape := ⟨2, ![474, 200]⟩
abbrev S475x200 : Shape := ⟨2, ![475, 200]⟩
abbrev S2x400000 : Shape := ⟨2, ![2, 400000]⟩
abbrev S400000 : Shape := ⟨1, ![400000]⟩
abbrev S1x400000 : Shape := ⟨2, ![1, 400000]⟩
abbrev S_ : Shape := ⟨0, ![]⟩
abbrev S100000 : Shape := ⟨1, ![100000]⟩
abbrev S400000x1 : Shape := ⟨2, ![400000, 1]⟩
abbrev S400000x200 : Shape := ⟨2, ![400000, 200]⟩

abbrev nBuf : Space → Nat
  | .hbm => 168
  | .vmem => 0
  | .smem => 0
  | _ => 0

abbrev hbmTy0_0 (i : Nat) : BufTy := match i % 128 with
  | 0 => ⟨S100000x200, .f32⟩
  | 1 => ⟨S2x800000, .i32⟩
  | 2 => ⟨S800000, .i32⟩
  | 3 => ⟨S50x200, .f32⟩
  | 4 => ⟨S474x50, .f32⟩
  | 5 => ⟨S200x200, .f32⟩
  | 6 => ⟨S1x200, .f32⟩
  | 7 => ⟨S200x200, .f32⟩
  | 8 => ⟨S200x200, .f32⟩
  | 9 => ⟨S200x200, .f32⟩
  | 10 => ⟨S474x200, .f32⟩
  | 11 => ⟨S475x200, .f32⟩
  | 12 => ⟨S2x400000, .i32⟩
  | 13 => ⟨S2x400000, .i32⟩
  | 14 => ⟨S400000, .i32⟩
  | 15 => ⟨S400000, .i32⟩
  | 16 => ⟨S1x400000, .i32⟩
  | 17 => ⟨S400000, .i32⟩
  | 18 => ⟨S1x400000, .i32⟩
  | 19 => ⟨S400000, .i32⟩
  | 20 => ⟨S_, .f32⟩
  | 21 => ⟨S400000, .f32⟩
  | 22 => ⟨S_, .f32⟩
  | 23 => ⟨S100000, .f32⟩
  | 24 => ⟨S400000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000, .f32⟩
  | 55 => ⟨S400000, .f32⟩
  | 56 => ⟨S1x400000, .i32⟩
  | 57 => ⟨S400000, .i32⟩
  | 58 => ⟨S1x400000, .i32⟩
  | 59 => ⟨S400000, .i32⟩
  | 60 => ⟨S_, .f32⟩
  | 61 => ⟨S400000, .f32⟩
  | 62 => ⟨S_, .f32⟩
  | 63 => ⟨S100000, .f32⟩
  | 64 => ⟨S400000x1, .i32⟩
  | 65 => ⟨S100000, .f32⟩
  | 66 => ⟨S_, .f32⟩
  | 67 => ⟨S100000, .f32⟩
  | 68 => ⟨S100000, .i1⟩
  | 69 => ⟨S_, .f32⟩
  | 70 => ⟨S100000, .f32⟩
  | 71 => ⟨S100000, .f32⟩
  | 72 => ⟨S100000, .f32⟩
  | 73 => ⟨S_, .f32⟩
  | 74 => ⟨S_, .f32⟩
  | 75 => ⟨S100000, .f32⟩
  | 76 => ⟨S100000, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000, .f32⟩
  | 95 => ⟨S400000, .f32⟩
  | 96 => ⟨S1x400000, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x200, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S400000x200, .f32⟩
  | 116 => ⟨S400000x200, .f32⟩
  | 117 => ⟨S400000x200, .f32⟩
  | 118 => ⟨S400000x1, .f32⟩
  | 119 => ⟨S400000x200, .f32⟩
  | 120 => ⟨S400000x200, .f32⟩
  | 121 => ⟨S1x400000, .i32⟩
  | 122 => ⟨S400000, .i32⟩
  | 123 => ⟨S_, .f32⟩
  | 124 => ⟨S100000x200, .f32⟩
  | 125 => ⟨S400000x1, .i32⟩
  | 126 => ⟨S100000x200, .f32⟩
  | 127 => ⟨S1x400000, .i32⟩
  | _ => ⟨S100000x200, .f32⟩

abbrev hbmTy0_1 (i : Nat) : BufTy := match i % 128 with
  | 0 => ⟨S400000, .i32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x200, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x200, .f32⟩
  | 19 => ⟨S400000x200, .f32⟩
  | 20 => ⟨S400000x200, .f32⟩
  | 21 => ⟨S400000x1, .f32⟩
  | 22 => ⟨S400000x200, .f32⟩
  | 23 => ⟨S400000x200, .f32⟩
  | 24 => ⟨S1x400000, .i32⟩
  | 25 => ⟨S400000, .i32⟩
  | 26 => ⟨S_, .f32⟩
  | 27 => ⟨S100000x200, .f32⟩
  | 28 => ⟨S400000x1, .i32⟩
  | 29 => ⟨S100000x200, .f32⟩
  | 30 => ⟨S100000x200, .f32⟩
  | 31 => ⟨S100000x200, .f32⟩
  | 32 => ⟨S100000x200, .f32⟩
  | 33 => ⟨S100000x200, .f32⟩
  | 34 => ⟨S100000x200, .f32⟩
  | 35 => ⟨S_, .f32⟩
  | 36 => ⟨S100000x200, .f32⟩
  | 37 => ⟨S100000x200, .f32⟩
  | 38 => ⟨S100000x200, .f32⟩
  | 39 => ⟨S475x200, .f32⟩
  | _ => ⟨S100000x200, .f32⟩

abbrev hbmTy (i : Nat) : BufTy := match i / 128 with
  | 0 => hbmTy0_0 i
  | 1 => hbmTy0_1 i
  | _ => ⟨S100000x200, .f32⟩

abbrev bufTy : (tb : Table) → Fin (tcTables nBuf tb) → BufTy
  | .hbm, ⟨i, _⟩ => hbmTy i
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_c_19 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_c_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_23 : Ref sig .tc := ⟨.hbm, 138, rfl⟩
abbrev main_v99 : Ref sig .tc := ⟨.hbm, 139, rfl⟩
abbrev main_v100 : Ref sig .tc := ⟨.hbm, 140, rfl⟩
abbrev main_c_24 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_25 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_26 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]

class Facts₀ : Prop where
  concatenates_S474x200_S1x200_S475x200_d0 : Shape.Concatenates [S474x200, S1x200] S475x200 0
  slices_S2x800000_S2x400000_0_0 : S2x800000.Slices ![0, 0] S2x400000
  slices_S2x800000_S2x400000_0_400000 : S2x800000.Slices ![0, 400000] S2x400000
  slices_S800000_S400000_0 : S800000.Slices ![0] S400000
  slices_S800000_S400000_400000 : S800000.Slices ![400000] S400000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x200_0_1 : S400000x1.BroadcastsInDim S400000x200 (![0, 1] : Fin 2 → Fin S400000x200.rank)
  bcast_S_S100000x200 : S_.BroadcastsInDim S100000x200 (![] : Fin 0 → Fin S100000x200.rank)
  bcast_S1x200_S100000x200_0_1 : S1x200.BroadcastsInDim S100000x200 (![0, 1] : Fin 2 → Fin S100000x200.rank)
  dot_S474x50_S50x200_S474x200_1_0_0_1_n_n_wf : DotDims.WF S474x50 S50x200 S474x200 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x200_S400000x1_S400000x200_1_0_n_n_0_1_1200_wf : GatherDims.WF S100000x200 S400000x1 S400000x200 [1] [0] [] [0] [] 1 ![1, 200]
  gather_S475x200_S400000x1_S400000x200_1_0_n_n_0_1_1200_wf : GatherDims.WF S475x200 S400000x1 S400000x200 [1] [0] [] [0] [] 1 ![1, 200]
  dot_S400000x200_S200x200_S400000x200_1_0_0_1_n_n_wf : DotDims.WF S400000x200 S200x200 S400000x200 [1] [0] [0] [1] [] []
  scatter_S100000x200_S400000x1_S400000x200_1_0_0_1_wf : ScatterDims.WF S100000x200 S400000x1 S400000x200 [1] [0] [0] 1
  dot_S100000x200_S200x200_S100000x200_1_0_0_1_n_n_wf : DotDims.WF S100000x200 S200x200 S100000x200 [1] [0] [0] [1] [] []
  dot_S475x200_S200x200_S475x200_1_0_0_1_n_n_wf : DotDims.WF S475x200 S200x200 S475x200 [1] [0] [0] [1] [] []

variable [Facts₀]

def dot_S474x50_S50x200_S474x200_1_0_0_1_n_n : DotDims S474x50 S50x200 S474x200 where
  lhsContracting := [1]
  rhsContracting := [0]
  lhsNonContracting := [0]
  rhsNonContracting := [1]
  lhsBatch := []
  rhsBatch := []
  wf := dot_S474x50_S50x200_S474x200_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x200_S400000x1_S400000x200_1_0_n_n_0_1_1200 : GatherDims S100000x200 S400000x1 S400000x200 where
  offsetDims := [1]
  collapsedSliceDims := [0]
  operandBatchingDims := []
  startIndicesBatchingDims := []
  startIndexMap := [0]
  indexVectorDim := 1
  sliceSizes := ![1, 200]
  wf := gather_S100000x200_S400000x1_S400000x200_1_0_n_n_0_1_1200_wf
def gather_S475x200_S400000x1_S400000x200_1_0_n_n_0_1_1200 : GatherDims S475x200 S400000x1 S400000x200 where
  offsetDims := [1]
  collapsedSliceDims := [0]
  operandBatchingDims := []
  startIndicesBatchingDims := []
  startIndexMap := [0]
  indexVectorDim := 1
  sliceSizes := ![1, 200]
  wf := gather_S475x200_S400000x1_S400000x200_1_0_n_n_0_1_1200_wf
def dot_S400000x200_S200x200_S400000x200_1_0_0_1_n_n : DotDims S400000x200 S200x200 S400000x200 where
  lhsContracting := [1]
  rhsContracting := [0]
  lhsNonContracting := [0]
  rhsNonContracting := [1]
  lhsBatch := []
  rhsBatch := []
  wf := dot_S400000x200_S200x200_S400000x200_1_0_0_1_n_n_wf
def scatter_S100000x200_S400000x1_S400000x200_1_0_0_1 : ScatterDims S100000x200 S400000x1 S400000x200 where
  updateWindowDims := [1]
  insertedWindowDims := [0]
  scatterDimsToOperandDims := [0]
  indexVectorDim := 1
  wf := scatter_S100000x200_S400000x1_S400000x200_1_0_0_1_wf
def dot_S100000x200_S200x200_S100000x200_1_0_0_1_n_n : DotDims S100000x200 S200x200 S100000x200 where
  lhsContracting := [1]
  rhsContracting := [0]
  lhsNonContracting := [0]
  rhsNonContracting := [1]
  lhsBatch := []
  rhsBatch := []
  wf := dot_S100000x200_S200x200_S100000x200_1_0_0_1_n_n_wf
def dot_S475x200_S200x200_S475x200_1_0_0_1_n_n : DotDims S475x200 S200x200 S475x200 where
  lhsContracting := [1]
  rhsContracting := [0]
  lhsNonContracting := [0]
  rhsNonContracting := [1]
  lhsBatch := []
  rhsBatch := []
  wf := dot_S475x200_S200x200_S475x200_1_0_0_1_n_n_wf

class Facts : Prop extends Facts₀ where

variable [Facts]
-- ==== Proof.KernelRun.lean ====
/-
  The kernel program's run with its two results named.

  The program is eleven segments: host stretches and three tiled regions. Every weakly fair execution terminates, and the
  final memory holds, at every buffer that is not a region's scratch, the contents the segments' fold leaves there: the
  launch contents pushed through each host stretch's operations and each region's write-backs in turn. Read at the
  two result buffers this names the results; read at the ten argument buffers it says they are unchanged.
-/
import proofs.«159541_j86045374808383_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result buffers end at what the
    last segment boundary's fold holds there, and the arguments end as launched. -/
theorem run_results : θ_run defs (onTc (τ := τ) (main (F := F))) ⟨m, fun _ => 0, ρ⟩ (fun r => ∀ c : Dev nD,
      r.2.mem ((c.tc : Thread nD τ).loc main_v110) = W11 m ρ c (Proc.devRef .tc main_v110)
      ∧ r.2.mem ((c.tc : Thread nD τ).loc main_v111) = W11 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v110 (by decide)),
       h c _ (mem_uc main_v111 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.KernelFold.lean ====
/-
  The kernel program's buffers at its segment boundaries, read as the reference's stages.

  Up to its first tiled region the kernel program does on the host exactly what the reference does: the relation
  embeddings (a matrix product and one appended row), the two halves of the edge list, the per-edge norms (degrees by a
  scatter of ones, inverse square roots where positive, gathered at both ends and multiplied), and the four row gathers.
  So each buffer a region reads holds the reference's stage of the same name, as a function of the argument arrays; and
  a buffer no later segment writes keeps that value up to the boundary where it is read.
-/
import proofs.«159541_j86045374808383_1_alg».proof.Proof.Gen.KernelIdeal.Frame
import proofs.«159541_j86045374808383_1_alg».proof.Proof.RefRead

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable {F : FTy → Type} [FloatOps F]

variable (m : (ℓ : Loc nD τ sig) → Buf (Elt F) ℓ) (ρ : Dev nD → PrngReg) (c : Dev nD)

/-! ## At the first region's entry: every buffer the regions and the tail read, as the reference's stage -/

set_option maxHeartbeats 4000000 in
theorem W5_v72 : W5 m ρ c (Proc.devRef .tc main_v72) = Cert.ReferenceIdeal.ReadP.val_main_v72 (F := F) (m ((c : Thread nD τ).loc main_arg0)) (m ((c : Thread nD τ).loc main_arg1)) := by
  dsimp only [W5, W4, W3, W2, W1, W0, hostOps0, hostOps0_1, hostOps0_2, hostOps0_3, hostOps0_4]
  after_results_simp <;> rfl

set_option maxHeartbeats 4000000 in
theorem W5_v79 : W5 m ρ c (Proc.devRef .tc main_v79) = Cert.ReferenceIdeal.ReadP.val_main_v79 (F := F) (m ((c : Thread nD τ).loc main_arg2)) (m ((c : Thread nD τ).loc main_arg3)) (m ((c : Thread nD τ).loc main_arg4)) (m ((c : Thread nD τ).loc main_arg6)) := by
  dsimp only [W5, W4, W3, W2, W1, W0, hostOps0, hostOps0_1, hostOps0_2, hostOps0_3, hostOps0_4]
  after_results_simp <;> rfl

set_option maxHeartbeats 4000000 in
theorem W5_v34 : W5 m ρ c (Proc.devRef .tc main_v34) = Cert.ReferenceIdeal.ReadP.val_main_v34 (F := F) (m ((c : Thread nD τ).loc main_arg1)) := by
  dsimp only [W5, W4, W3, W2, W1, W0, hostOps0, hostOps0_1, hostOps0_2, hostOps0_3, hostOps0_4]
  after_results_simp <;> rfl

set_option maxHeartbeats 4000000 in
theorem W5_v96 : W5 m ρ c (Proc.devRef .tc main_v96) = shapeCast S400000x1 (Cert.ReferenceIdeal.ReadP.val_main_v34 (F := F) (m ((c : Thread nD τ).loc main_arg1))) Cert.KernelIdeal.Facts₀.shapeCasts_S400000_S400000x1 := by
  dsimp only [W5, W4, W3, W2, W1, W0, hostOps0, hostOps0_1, hostOps0_2, hostOps0_3, hostOps0_4]
  after_results_simp <;> rfl

set_option maxHeartbeats 4000000 in
theorem W5_v88 : W5 m ρ c (Proc.devRef .tc main_v88) = Cert.ReferenceIdeal.ReadP.val_main_v98 (F := F) (m ((c : Thread nD τ).loc main_arg0)) (m ((c : Thread nD τ).loc main_arg1)) := by
  dsimp only [W5, W4, W3, W2, W1, W0, hostOps0, hostOps0_1, hostOps0_2, hostOps0_3, hostOps0_4]
  after_results_simp <;> rfl

set_option maxHeartbeats 4000000 in
theorem W5_v95 : W5 m ρ c (Proc.devRef .tc main_v95) = Cert.ReferenceIdeal.ReadP.val_main_v105 (F := F) (m ((c : Thread nD τ).loc main_arg2)) (m ((c : Thread nD τ).loc main_arg3)) (m ((c : Thread nD τ).loc main_arg4)) (m ((c : Thread nD τ).loc main_arg6)) := by
  dsimp only [W5, W4, W3, W2, W1, W0, hostOps0, hostOps0_1, hostOps0_2, hostOps0_3, hostOps0_4]
  after_results_simp <;> rfl

set_option maxHeartbeats 4000000 in
theorem W5_v63 : W5 m ρ c (Proc.devRef .tc main_v63) = Cert.ReferenceIdeal.ReadP.val_main_v63 (F := F) (m ((c : Thread nD τ).loc main_arg1)) := by
  dsimp only [W5, W4, W3, W2, W1, W0, hostOps0, hostOps0_1, hostOps0_2, hostOps0_3, hostOps0_4]
  after_results_simp <;> rfl

set_option maxHeartbeats 4000000 in
theorem W5_v2 : W5 m ρ c (Proc.devRef .tc main_v2) = Cert.ReferenceIdeal.ReadP.val_main_v2 (F := F) (m ((c : Thread nD τ).loc main_arg1)) := by
  dsimp only [W5, W4, W3, W2, W1, W0, hostOps0, hostOps0_1, hostOps0_2, hostOps0_3, hostOps0_4]
  after_results_simp <;> rfl

set_option maxHeartbeats 4000000 in
theorem W5_v3 : W5 m ρ c (Proc.devRef .tc main_v3) = Cert.ReferenceIdeal.ReadP.val_main_v3 (F := F) (m ((c : Thread nD τ).loc main_arg1)) := by
  dsimp only [W5, W4, W3, W2, W1, W0, hostOps0, hostOps0_1, hostOps0_2, hostOps0_3, hostOps0_4]
  after_results_simp <;> rfl

set_option maxHeartbeats 4000000 in
theorem W5_v1 : W5 m ρ c (Proc.devRef .tc main_v1) = Cert.ReferenceIdeal.ReadP.val_main_v1 (F := F) (m ((c : Thread nD τ).loc main_arg3)) (m ((c : Thread nD τ).loc main_arg4)) (m ((c : Thread nD τ).loc main_arg6)) := by
  dsimp only [W5, W4, W3, W2, W1, W0, hostOps0, hostOps0_1, hostOps0_2, hostOps0_3, hostOps0_4]
  after_results_simp <;> rfl

set_option maxHeartbeats 4000000 in
theorem W5_arg0 : W5 m ρ c (Proc.devRef .tc main_arg0) = m ((c : Thread nD τ).loc main_arg0) := by
  dsimp only [W5, W4, W3, W2, W1, W0, hostOps0, hostOps0_1, hostOps0_2, hostOps0_3, hostOps0_4]
  after_results_simp <;> rfl

set_option maxHeartbeats 4000000 in
theorem W5_arg5 : W5 m ρ c (Proc.devRef .tc main_arg5) = m ((c : Thread nD τ).loc main_arg5) := by
  dsimp only [W5, W4, W3, W2, W1, W0, hostOps0, hostOps0_1, hostOps0_2, hostOps0_3, hostOps0_4]
  after_results_simp <;> rfl

set_option maxHeartbeats 4000000 in
theorem W5_arg6 : W5 m ρ c (Proc.devRef .tc main_arg6) = m ((c : Thread nD τ).loc main_arg6) := by
  dsimp only [W5, W4, W3, W2, W1, W0, hostOps0, hostOps0_1, hostOps0_2, hostOps0_3, hostOps0_4]
  after_results_simp <;> rfl

set_option maxHeartbeats 4000000 in
theorem W5_arg7 : W5 m ρ c (Proc.devRef .tc main_arg7) = m ((c : Thread nD τ).loc main_arg7) := by
  dsimp only [W5, W4, W3, W2, W1, W0, hostOps0, hostOps0_1, hostOps0_2, hostOps0_3, hostOps0_4]
  after_results_simp <;> rfl

set_option maxHeartbeats 4000000 in
theorem W5_arg8 : W5 m ρ c (Proc.devRef .tc main_arg8) = m ((c : Thread nD τ).loc main_arg8) := by
  dsimp only [W5, W4, W3, W2, W1, W0, hostOps0, hostOps0_1, hostOps0_2, hostOps0_3, hostOps0_4]
  after_results_simp <;> rfl

set_option maxHeartbeats 4000000 in
theorem W5_arg9 : W5 m ρ c (Proc.devRef .tc main_arg9) = m ((c : Thread nD τ).loc main_arg9) := by
  dsimp only [W5, W4, W3, W2, W1, W0, hostOps0, hostOps0_1, hostOps0_2, hostOps0_3, hostOps0_4]
  after_results_simp <;> rfl

/-! ## Buffers the later segments leave alone

Between the first region's entry and the last region's entry the program runs: the first region (which writes one
array), one host operation (the second norm stood up as a column), the second region (one array), and twelve host
operations (the two scatters with their index columns and zero arrays). A buffer none of them writes holds at any of
those boundaries what it held at the first region's entry. -/

theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffer the operation between the first two regions writes. -/
theorem writes1 : (hostOps1 : List (HloOp τ sig (Elt F))).Forall fun op =>
    op.writes ⊆ (([main_v98] : List (Ref sig .tc)).map (Proc.devRef (τ := τ) .tc)).toFinset :=
  sub_of_mem (by decide)

/-- The buffers the twelve operations between the last two regions write. -/
abbrev written2 : List (Ref sig .tc) :=
  [main_v100, main_v101, main_cst_24, main_v102, main_v103, main_v104, main_v105, main_v106, main_cst_25, main_v107, main_v108, main_v109]

theorem writes2 : (hostOps2 : List (HloOp τ sig (Elt F))).Forall fun op =>
    op.writes ⊆ (written2.map (Proc.devRef (τ := τ) .tc)).toFinset :=
  ⟨sub_of_mem (by decide), sub_of_mem (by decide), sub_of_mem (by decide), sub_of_mem (by decide), sub_of_mem (by decide),
   sub_of_mem (by decide), sub_of_mem (by decide), sub_of_mem (by decide), sub_of_mem (by decide), sub_of_mem (by decide),
   sub_of_mem (by decide), sub_of_mem (by decide)⟩

theorem keep7 (b : Ref sig .tc) (h0 : ∀ w, Pipeline.arrRef spec0 w ≠ b) (h1 : b ∉ ([main_v98] : List (Ref sig .tc))) :
    W7 m ρ c (Proc.devRef .tc b) = W5 m ρ c (Proc.devRef .tc b) :=
  (after_of_writes_sub hostOps1 (W6 m ρ c) writes1 h1).trans (W6_of_ne m ρ c b h0)

theorem keep8 (b : Ref sig .tc) (h0 : ∀ w, Pipeline.arrRef spec0 w ≠ b) (h1 : b ∉ ([main_v98] : List (Ref sig .tc)))
    (h2 : ∀ w, Pipeline.arrRef spec1 w ≠ b) :
    W8 m ρ c (Proc.devRef .tc b) = W5 m ρ c (Proc.devRef .tc b) :=
  (W8_of_ne m ρ c b h2).trans (keep7 m ρ c b h0 h1)

theorem keep9 (b : Ref sig .tc) (h0 : ∀ w, Pipeline.arrRef spec0 w ≠ b) (h1 : b ∉ ([main_v98] : List (Ref sig .tc)))
    (h2 : ∀ w, Pipeline.arrRef spec1 w ≠ b) (h3 : b ∉ written2) :
    W9 m ρ c (Proc.devRef .tc b) = W5 m ρ c (Proc.devRef .tc b) :=
  (after_of_writes_sub hostOps2 (W8 m ρ c) writes2 h3).trans (keep8 m ρ c b h0 h1 h2)

theorem keep10 (b : Ref sig .tc) (h0 : ∀ w, Pipeline.arrRef spec0 w ≠ b) (h1 : b ∉ ([main_v98] : List (Ref sig .tc)))
    (h2 : ∀ w, Pipeline.arrRef spec1 w ≠ b) (h3 : b ∉ written2) (h4 : ∀ w, Pipeline.arrRef spec2 w ≠ b) :
    W10 m ρ c (Proc.devRef .tc b) = W5 m ρ c (Proc.devRef .tc b) :=
  (W10_of_ne m ρ c b h4).trans (keep9 m ρ c b h0 h1 h2 h3)

/-! ## What each region and the tail find -/

theorem W9_arg0 : W9 m ρ c (Proc.devRef .tc main_arg0) = m ((c : Thread nD τ).loc main_arg0) :=
  (keep9 m ρ c main_arg0 (by decide) (by decide) (by decide) (by decide)).trans (W5_arg0 m ρ c)
theorem W9_arg6 : W9 m ρ c (Proc.devRef .tc main_arg6) = m ((c : Thread nD τ).loc main_arg6) :=
  (keep9 m ρ c main_arg6 (by decide) (by decide) (by decide) (by decide)).trans (W5_arg6 m ρ c)
theorem W9_arg9 : W9 m ρ c (Proc.devRef .tc main_arg9) = m ((c : Thread nD τ).loc main_arg9) :=
  (keep9 m ρ c main_arg9 (by decide) (by decide) (by decide) (by decide)).trans (W5_arg9 m ρ c)
theorem W10_v1 : W10 m ρ c (Proc.devRef .tc main_v1) = Cert.ReferenceIdeal.ReadP.val_main_v1 (F := F) (m ((c : Thread nD τ).loc main_arg3)) (m ((c : Thread nD τ).loc main_arg4)) (m ((c : Thread nD τ).loc main_arg6)) :=
  (keep10 m ρ c main_v1 (by decide) (by decide) (by decide) (by decide) (by decide)).trans (W5_v1 m ρ c)
theorem W10_arg5 : W10 m ρ c (Proc.devRef .tc main_arg5) = m ((c : Thread nD τ).loc main_arg5) :=
  (keep10 m ρ c main_arg5 (by decide) (by decide) (by decide) (by decide) (by decide)).trans (W5_arg5 m ρ c)
theorem W8_v2 : W8 m ρ c (Proc.devRef .tc main_v2) = Cert.ReferenceIdeal.ReadP.val_main_v2 (F := F) (m ((c : Thread nD τ).loc main_arg1)) :=
  (keep8 m ρ c main_v2 (by decide) (by decide) (by decide)).trans (W5_v2 m ρ c)
theorem W8_v3 : W8 m ρ c (Proc.devRef .tc main_v3) = Cert.ReferenceIdeal.ReadP.val_main_v3 (F := F) (m ((c : Thread nD τ).loc main_arg1)) :=
  (keep8 m ρ c main_v3 (by decide) (by decide) (by decide)).trans (W5_v3 m ρ c)
theorem W7_v88 : W7 m ρ c (Proc.devRef .tc main_v88) = Cert.ReferenceIdeal.ReadP.val_main_v98 (F := F) (m ((c : Thread nD τ).loc main_arg0)) (m ((c : Thread nD τ).loc main_arg1)) :=
  (keep7 m ρ c main_v88 (by decide) (by decide)).trans (W5_v88 m ρ c)
theorem W7_v95 : W7 m ρ c (Proc.devRef .tc main_v95) = Cert.ReferenceIdeal.ReadP.val_main_v105 (F := F) (m ((c : Thread nD τ).loc main_arg2)) (m ((c : Thread nD τ).loc main_arg3)) (m ((c : Thread nD τ).loc main_arg4)) (m ((c : Thread nD τ).loc main_arg6)) :=
  (keep7 m ρ c main_v95 (by decide) (by decide)).trans (W5_v95 m ρ c)
theorem W7_arg8 : W7 m ρ c (Proc.devRef .tc main_arg8) = m ((c : Thread nD τ).loc main_arg8) :=
  (keep7 m ρ c main_arg8 (by decide) (by decide)).trans (W5_arg8 m ρ c)

/-- The second region's norm column: the second norm, stood up as a column. -/
theorem W7_v98 : W7 m ρ c (Proc.devRef .tc main_v98)
    = shapeCast S400000x1 (Cert.ReferenceIdeal.ReadP.val_main_v63 (F := F) (m ((c : Thread nD τ).loc main_arg1))) Cert.KernelIdeal.Facts₀.shapeCasts_S400000_S400000x1 := by
  have h : W7 m ρ c (Proc.devRef .tc main_v98)
      = shapeCast S400000x1 (W6 m ρ c (Proc.devRef .tc main_v63)) Cert.KernelIdeal.Facts₀.shapeCasts_S400000_S400000x1 := by
    dsimp only [W7, hostOps1]
    after_results
    rfl
  rw [h, W6_of_ne m ρ c main_v63 (by decide), W5_v63]

/-- The first region's result reaches the last region's entry untouched. -/
theorem W8_v97 : W8 m ρ c (Proc.devRef .tc main_v97) = (dat0 (V5 m ρ) c).arrAt 4 cfg0.N :=
  (W8_of_ne m ρ c main_v97 (by decide)).trans
    ((after_of_writes_sub hostOps1 (W6 m ρ c) writes1 (by decide)).trans (W6_arr m ρ c 4))

theorem W8_v99 : W8 m ρ c (Proc.devRef .tc main_v99) = (dat1 (V7 m ρ) c).arrAt 4 cfg1.N := W8_arr m ρ c 4

/-- The two aggregates the last region reads: each direction's messages summed into their head nodes. -/
theorem W9_v104 : @Eq (FVec F Cert.ReferenceIdeal.S100000x200 .f32) (W9 m ρ c (Proc.devRef .tc main_v104))
      (Host.scatterAdd (F := F) Cert.ReferenceIdeal.scatter_S100000x200_S400000x1_S400000x200_1_0_0_1 (Cert.ReferenceIdeal.ReadP.val_main_v87 (F := F))
        (Cert.ReferenceIdeal.ReadP.val_main_v88 (F := F) (m ((c : Thread nD τ).loc main_arg1))) (W8 m ρ c (Proc.devRef .tc main_v97))) := by
  dsimp only [W9, hostOps2]
  after_results
  rw [W8_v2]
  rfl

theorem W9_v109 : @Eq (FVec F Cert.ReferenceIdeal.S100000x200 .f32) (W9 m ρ c (Proc.devRef .tc main_v109))
      (Host.scatterAdd (F := F) Cert.ReferenceIdeal.scatter_S100000x200_S400000x1_S400000x200_1_0_0_1 (Cert.ReferenceIdeal.ReadP.val_main_v113 (F := F))
        (Cert.ReferenceIdeal.ReadP.val_main_v114 (F := F) (m ((c : Thread nD τ).loc main_arg1))) (W8 m ρ c (Proc.devRef .tc main_v99))) := by
  dsimp only [W9, hostOps2]
  after_results
  rw [W8_v3]
  rfl

/-! ## The results -/

/-- The relation output is the tail's one host product of the relation embeddings with the relation weight. -/
theorem W11_v111 : @Eq (FVec F Cert.ReferenceIdeal.S475x200 .f32) (W11 m ρ c (Proc.devRef .tc main_v111))
      (Cert.ReferenceIdeal.ReadP.val_main_v124 (F := F) (m ((c : Thread nD τ).loc main_arg3)) (m ((c : Thread nD τ).loc main_arg4)) (m ((c : Thread nD τ).loc main_arg5)) (m ((c : Thread nD τ).loc main_arg6))) := by
  have h : @Eq (FVec F Cert.ReferenceIdeal.S475x200 .f32) (W11 m ρ c (Proc.devRef .tc main_v111))
      (Host.dotGeneral (F := F) Cert.ReferenceIdeal.dot_S475x200_S200x200_S475x200_1_0_0_1_n_n none
        (W10 m ρ c (Proc.devRef .tc main_v1)) (W10 m ρ c (Proc.devRef .tc main_arg5))) := by
    dsimp only [W11, hostOps3]
    after_results
    rfl
  rw [h, W10_v1, W10_arg5]
  rfl

/-- The node output is the last region's result array; the tail does not touch it. -/
theorem W11_v110 : W11 m ρ c (Proc.devRef .tc main_v110) = (dat2 (V9 m ρ) c).arrAt 5 cfg2.N := by
  have e1 : W11 m ρ c (Proc.devRef .tc main_v110) = W10 m ρ c (Proc.devRef .tc main_v110) := by
    dsimp only [W11, hostOps3]
    after_results
  exact e1.trans (W10_arr m ρ c 5)

end Cert.KernelIdeal.Fold

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«159541_j86045374808383_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.Spec.lean ====
/-
  The two tile computations of the kernel, stated once for whole arrays, and read at an index.

  An edge message: for edge r and output channel q, the row x_r − rel_r of the composed edge features times column q of
  the weight, scaled by the edge's norm:   msg (r, q) = (∑ k, (X (r, k) − R (r, k)) · w (k, q)) · n (r, 0).
  A node update: the two aggregated messages plus the self-loop product, a third of it, through tanh:
     out (i, q) = tanh ((S₁ (i, q) + S₂ (i, q) + ∑ k, (x (i, k) − ℓ (0, k)) · w (k, q)) · c),  c the f32 nearest 1/3.
  Both are written as the host's whole-array operations (one subtraction, one matrix product, one broadcast, one
  product), so that a program which computes them array by array has them by definition, and a program which
  computes them tile by tile has them entry by entry (the `_apply` lemmas).
-/
import Idealize.ShloMosaic.PureOps.Ideal.Laws
import Idealize.ShloMosaic.Lib.ValueIdx
import Idealize.ShloMosaic.Lib.Pipeline.Value
import proofs.«159541_j86045374808383_1_alg».proof.Proof.LibHostDot2

noncomputable section

namespace Cert.Spec

open Idealize.ShloMosaic Idealize.ShloMosaic.ValueIdx

/-- edges × channels, nodes × channels, the square weights, one norm per edge, the self-loop relation's row, a scalar -/
abbrev SE : Shape := ⟨2, ![400000, 200]⟩
abbrev SN : Shape := ⟨2, ![100000, 200]⟩
abbrev SW : Shape := ⟨2, ![200, 200]⟩
abbrev SC : Shape := ⟨2, ![400000, 1]⟩
abbrev SL : Shape := ⟨2, ![1, 200]⟩
abbrev S0 : Shape := ⟨0, ![]⟩

/-- The messages of one direction: (X − R) · w, every row scaled by its edge's norm. -/
def edgeMsg (wf : DotDims.WF SE SW SE [1] [0] [0] [1] [] [])
    (hb : SC.BroadcastsInDim SE (![0, 1] : Fin 2 → Fin SE.rank))
    (X R : FVec Ideal SE .f32) (n : FVec Ideal SC .f32) (w : FVec Ideal SW .f32) : FVec Ideal SE .f32 :=
  mulf (Host.dotGeneral (Cert.Lib.plain2 wf) none (subf X R) w) (broadcastInDim SE ![0, 1] hb n)

/-- One entry of the messages. -/
theorem edgeMsg_apply (wf : DotDims.WF SE SW SE [1] [0] [0] [1] [] [])
    (hb : SC.BroadcastsInDim SE (![0, 1] : Fin 2 → Fin SE.rank))
    (X R : FVec Ideal SE .f32) (n : FVec Ideal SC .f32) (w : FVec Ideal SW .f32) (r : Fin 400000) (q : Fin 200) :
    edgeMsg wf hb X R n w (ix2 r q)
      = (∑ k : Fin 200, (X (ix2 r k) - R (ix2 r k)) * w (ix2 k q)) * n (ix2 r (0 : Fin 1)) := by
  unfold edgeMsg
  rw [mulf_apply, Cert.Lib.hostDot2_apply wf (subf X R) w r q]
  congr 1
  refine broadcastInDim_apply _ hb n (ix2 r q) (ix2 r (0 : Fin 1)) fun a => ?_
  match a with
  | ⟨0, _⟩ => rfl
  | ⟨1, _⟩ => rfl

/-- The node update: tanh of a third of (the two aggregates plus (x − ℓ) · w). -/
def combine (wf : DotDims.WF SN SW SN [1] [0] [0] [1] [] [])
    (hbl : SL.BroadcastsInDim SN (![0, 1] : Fin 2 → Fin SN.rank))
    (hb0 : S0.BroadcastsInDim SN (![] : Fin 0 → Fin SN.rank))
    (x S₁ S₂ : FVec Ideal SN .f32) (l : FVec Ideal SL .f32) (w : FVec Ideal SW .f32) : FVec Ideal SN .f32 :=
  Host.tanh (mulf (addf (addf S₁ S₂) (Host.dotGeneral (Cert.Lib.plain2 wf) none (subf x (broadcastInDim SN ![0, 1] hbl l)) w))
    (broadcastInDim SN ![] hb0 (constant (F := Ideal) S0 .f32 0x3EAAAAAB#32)))

/-- One entry of the node update. -/
theorem combine_apply (wf : DotDims.WF SN SW SN [1] [0] [0] [1] [] [])
    (hbl : SL.BroadcastsInDim SN (![0, 1] : Fin 2 → Fin SN.rank))
    (hb0 : S0.BroadcastsInDim SN (![] : Fin 0 → Fin SN.rank))
    (x S₁ S₂ : FVec Ideal SN .f32) (l : FVec Ideal SL .f32) (w : FVec Ideal SW .f32) (i : Fin 100000) (q : Fin 200) :
    combine wf hbl hb0 x S₁ S₂ l w (ix2 i q)
      = Ideal.tanh ((S₁ (ix2 i q) + S₂ (ix2 i q) + ∑ k : Fin 200, (x (ix2 i k) - l (ix2 (0 : Fin 1) k)) * w (ix2 k q))
          * Ideal.ofBits .f32 0x3EAAAAAB#32) := by
  unfold combine
  show Ideal.tanh (_ * _) = _
  rw [addf_apply, addf_apply, Cert.Lib.hostDot2_apply wf (subf x (broadcastInDim SN ![0, 1] hbl l)) w i q]
  have hrow : ∀ k : Fin 200, broadcastInDim SN ![0, 1] hbl l (ix2 i k) = l (ix2 (0 : Fin 1) k) := fun k => by
    refine broadcastInDim_apply _ hbl l (ix2 i k) (ix2 (0 : Fin 1) k) fun a => ?_
    match a with
    | ⟨0, _⟩ => rfl
    | ⟨1, _⟩ => rfl
  have hc : broadcastInDim SN ![] hb0 (constant (F := Ideal) S0 .f32 0x3EAAAAAB#32) (ix2 i q)
      = Ideal.ofBits .f32 0x3EAAAAAB#32 :=
    (broadcastInDim_apply _ hb0 (constant (F := Ideal) S0 .f32 0x3EAAAAAB#32) (ix2 i q) (fun a => a.elim0)
      fun a => a.elim0).trans (constant_apply _ _)
  rw [hc]
  refine congrArg (fun s => Ideal.tanh ((S₁ (ix2 i q) + S₂ (ix2 i q) + s) * Ideal.ofBits .f32 0x3EAAAAAB#32)) ?_
  refine Finset.sum_congr rfl fun k _ => ?_
  rw [subf_apply, hrow k]

end Cert.Spec

end
-- ==== Proof.LibColumnBroadcast.lean ====
/- A general layout fact: a column broadcast over the lanes, read at an index. -/
import Idealize.ShloMosaic.Lib.Pipeline.Value
import Idealize.ShloMosaic.Lib.ValueIdx

namespace Cert.Lib

open Idealize.ShloMosaic Idealize.ShloMosaic.ValueIdx

/-- An `[a, 1]` array (one value per row, as a reduction that keeps its axis leaves it) broadcast to `[a, b]` reads, at
    `(p, c)`, row `p`'s one value, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.EdgeValue.lean ====
/-
  The two edge kernels, as whole arrays.

  Each edge kernel walks the 400000 edges in 200 tiles of 2000 rows. On a tile it takes the rows x − rel of the edge
  features, multiplies them by the whole 200 × 200 weight, and scales row r of the product by the edge's norm: entry
  (p, q) of the tile it stores is (∑ k, (x (p, k) − rel (p, k)) · w (k, q)) · n (p, 0). Tile t of every edge-indexed
  array is rows 2000·t … 2000·t + 1999, so what tile t writes back is rows 2000·t … of the whole-array edge message,
  and the 200 tiles cover every row: the output array ends holding the edge message of the four input arrays.
-/
import proofs.«159541_j86045374808383_1_alg».proof.Proof.Gen.KernelIdeal.Frame
import proofs.«159541_j86045374808383_1_alg».proof.Proof.Spec
import proofs.«159541_j86045374808383_1_alg».proof.Proof.LibColumnBroadcast
import proofs.«159541_j86045374808383_1_alg».proof.Proof.LibMatmul2
import Idealize.ShloMosaic.Lib.Pipeline.Value
import Idealize.ShloMosaic.Lib.ValueIdx
import Idealize.ShloMosaic.Lib.ValueLayout

set_option maxRecDepth 16384

noncomputable section

namespace Cert.KernelIdeal.EdgeValue

open Cert.KernelIdeal Cert.KernelIdeal.Gen Idealize.ShloMosaic Idealize.ShloMosaic.TcCoe Idealize.ShloMosaic.ValueIdx Idealize.SL.Sem
open Idealize.ShloMosaic.Pipeline (Dat)

/-! ## A tile's payload at an index -/

/-- Entry (p, q) of what the first edge kernel stores for a tile: row p of x − rel times column q of the weight,
    scaled by row p's norm. -/
theorem pay0_apply (x0 x1 : Vec Ideal S2000x200 .f32) (x2 : Vec Ideal S2000x1 .f32) (x3 : Vec Ideal S200x200 .f32)
    (p : Fin 2000) (q : Fin 200) :
    k0_pay1 x0 x1 x3 x2 (ix2 p q)
      = (∑ k : Fin 200, (x0 (ix2 p k) - x1 (ix2 p k)) * x3 (ix2 k q)) * x2 (ix2 p (0 : Fin 1)) := by
  unfold k0_pay1
  simp only [shapeCast_self]
  refine (mulf_apply _ _ (ix2 p q)).trans ?_
  refine congrArg₂ (· * ·) ?_ (Cert.Lib.broadcastTo_a1_ab_apply x2 _ p q)
  refine (Cert.Lib.matmul2_zero_apply dot_S2000x200_S200x200_S2000x200_1_0_0_1_n_n_wf _ _ p q).trans ?_
  exact Finset.sum_congr rfl fun k _ => rfl

/-- Entry (p, q) of what the second edge kernel stores for a tile: the same expression of its own four tiles. -/
theorem pay1_apply (x0 x1 : Vec Ideal S2000x200 .f32) (x2 : Vec Ideal S2000x1 .f32) (x3 : Vec Ideal S200x200 .f32)
    (p : Fin 2000) (q : Fin 200) :
    k1_pay1 x0 x1 x3 x2 (ix2 p q)
      = (∑ k : Fin 200, (x0 (ix2 p k) - x1 (ix2 p k)) * x3 (ix2 k q)) * x2 (ix2 p (0 : Fin 1)) := by
  unfold k1_pay1
  simp only [shapeCast_self]
  refine (mulf_apply _ _ (ix2 p q)).trans ?_
  refine congrArg₂ (· * ·) ?_ (Cert.Lib.broadcastTo_a1_ab_apply x2 _ p q)
  refine (Cert.Lib.matmul2_zero_apply dot_S2000x200_S200x200_S2000x200_1_0_0_1_n_n_wf _ _ p q).trans ?_
  exact Finset.sum_congr rfl fun k _ => rfl

/-! ## The tiles of the first edge kernel -/

theorem hz : (![0, 0] : Fin 2 → Nat) = fun _ => 0 := funext fun a => by fin_cases a <;> rfl

/-- The index maps over the grid: tile t of each edge-indexed array is block (t, 0); the weight's block is (0, 0) at
    every tile. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Tiles0

variable (V : (c : Dev nD) → (b : Ref sig .tc) → Buf (Elt Ideal) ((c : Thread nD τ).loc b))

/-- Tile t of x is rows 2000·t … of x. -/
theorem blk0_0 (c : Dev nD) (t : Fin cfg0.N) (p : Fin 2000) (k : Fin 200) (h : 2000 * t.val + p.val < 400000) :
    (iblk0 V c 0 t : Vec Ideal S2000x200 .f32) (ix2 p k)
      = (V c main_v72 : Vec Ideal S400000x200 .f32) (ix2 ⟨2000 * t.val + p.val, h⟩ k) := by
  obtain ⟨e0, e1, -⟩ := idx_facts0 t
  unfold iblk0
  rw [View.read_apply]
  show V c main_v72 _ = V c main_v72 _
  congr 1
  funext a
  apply Fin.ext
  match a with
  | ⟨0, _⟩ => show win0_0.index t (0 : Fin 2) * 2000 + 1 * p.val = 2000 * t.val + p.val; omega
  | ⟨1, _⟩ => show win0_0.index t (1 : Fin 2) * 200 + 1 * k.val = k.val; omega

/-- Tile t of rel is rows 2000·t … of rel. -/
theorem blk0_1 (c : Dev nD) (t : Fin cfg0.N) (p : Fin 2000) (k : Fin 200) (h : 2000 * t.val + p.val < 400000) :
    (iblk0 V c 1 t : Vec Ideal S2000x200 .f32) (ix2 p k)
      = (V c main_v79 : Vec Ideal S400000x200 .f32) (ix2 ⟨2000 * t.val + p.val, h⟩ k) := by
  obtain ⟨-, -, e0, e1, -⟩ := idx_facts0 t
  unfold iblk0
  rw [View.read_apply]
  show V c main_v79 _ = V c main_v79 _
  congr 1
  funext a
  apply Fin.ext
  match a with
  | ⟨0, _⟩ => show win0_1.index t (0 : Fin 2) * 2000 + 1 * p.val = 2000 * t.val + p.val; omega
  | ⟨1, _⟩ => show win0_1.index t (1 : Fin 2) * 200 + 1 * k.val = k.val; omega

/-- Tile t of the norm column is rows 2000·t … of the column. -/
theorem blk0_2 (c : Dev nD) (t : Fin cfg0.N) (p : Fin 2000) (h : 2000 * t.val + p.val < 400000) :
    (iblk0 V c 2 t : Vec Ideal S2000x1 .f32) (ix2 p (0 : Fin 1))
      = (V c main_v96 : Vec Ideal S400000x1 .f32) (ix2 ⟨2000 * t.val + p.val, h⟩ (0 : Fin 1)) := by
  obtain ⟨-, -, -, -, e0, e1, -⟩ := idx_facts0 t
  unfold iblk0
  rw [View.read_apply]
  show V c main_v96 _ = V c main_v96 _
  congr 1
  funext a
  apply Fin.ext
  match a with
  | ⟨0, _⟩ => show win0_2.index t (0 : Fin 2) * 2000 + 1 * p.val = 2000 * t.val + p.val; omega
  | ⟨1, _⟩ => show win0_2.index t (1 : Fin 2) * 1 + 1 * 0 = 0; omega

/-- Every tile sees the whole weight. -/
theorem blk0_3 (c : Dev nD) (t : Fin cfg0.N) (k q : Fin 200) :
    (iblk0 V c 3 t : Vec Ideal S200x200 .f32) (ix2 k q) = (V c main_arg7 : Vec Ideal S200x200 .f32) (ix2 k q) := by
  obtain ⟨-, -, -, -, -, -, e0, e1, -⟩ := idx_facts0 t
  unfold iblk0
  rw [View.read_apply]
  show V c main_arg7 _ = V c main_arg7 _
  congr 1
  funext a
  apply Fin.ext
  match a with
  | ⟨0, _⟩ => show win0_3.index t (0 : Fin 2) * 200 + 1 * k.val = k.val; omega
  | ⟨1, _⟩ => show win0_3.index t (1 : Fin 2) * 200 + 1 * q.val = q.val; omega

/-- Tile t of an edge-indexed array, read through the output's window, is rows 2000·t … of it. -/
theorem oblk0 (t : Fin cfg0.N) (G : Vec Ideal S400000x200 .f32) (p : Fin 2000) (q : Fin 200)
    (h : 2000 * t.val + p.val < 400000) :
    (((cfg0.win 4).blk t).view.read (Elt Ideal) G : Vec Ideal S2000x200 .f32) (ix2 p q)
      = G (ix2 ⟨2000 * t.val + p.val, h⟩ q) := by
  obtain ⟨-, -, -, -, -, -, -, -, e0, e1⟩ := idx_facts0 t
  rw [View.read_apply]
  show G _ = G _
  congr 1
  funext a
  apply Fin.ext
  match a with
  | ⟨0, _⟩ => show win0_4.index t (0 : Fin 2) * 2000 + 1 * p.val = 2000 * t.val + p.val; omega
  | ⟨1, _⟩ => show win0_4.index t (1 : Fin 2) * 200 + 1 * q.val = q.val; omega

/-- A row of the output array is in tile t iff each coordinate is in the tile's range on its axis. -/
theorem mem_blk0 (t : Fin cfg0.N) (i : S400000x200.Idx) :
    i ∈ ((cfg0.win 4).blk t).view.set ↔ ∀ a : Fin 2, win0_4.index t a * S2000x200.size a ≤ (i a).val ∧ (i a).val < win0_4.index t a * S2000x200.size a + S2000x200.size a := by
  show i ∈ ((View.whole main_v97).slice (win0_4.rect t)).set ↔ _
  rw [View.set_slice_whole, Rect.mem_set_unit]
  exact Iff.rfl

/-- The 200 tiles cover the output: row r is in tile r / 2000. -/
theorem cover0 (i : S400000x200.Idx) :
    ∃ t : Fin cfg0.N, (cfg0.win 4).flush t = true ∧ i ∈ ((cfg0.win 4).blk t).view.set := by
  have hN : grid0.N = 200 := Gen.N_0
  have hi0 : (i 0).val < 400000 := (i 0).isLt
  have hi1 : (i 1).val < 200 := (i 1).isLt
  have ht : (i 0).val / 2000 < cfg0.N := by show (i 0).val / 2000 < grid0.N; omega
  obtain ⟨-, -, -, -, -, -, -, -, e0, e1⟩ := idx_facts0 ⟨(i 0).val / 2000, ht⟩
  have e0' : win0_4.index ⟨(i 0).val / 2000, ht⟩ (0 : Fin 2) = (i 0).val / 2000 := e0
  refine ⟨⟨(i 0).val / 2000, ht⟩, flush0_4 _, ?_⟩
  rw [mem_blk0]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    omega
  | ⟨1, _⟩ =>
    show win0_4.index ⟨(i 0).val / 2000, ht⟩ (1 : Fin 2) * 200 ≤ (i 1).val
      ∧ (i 1).val < win0_4.index ⟨(i 0).val / 2000, ht⟩ (1 : Fin 2) * 200 + 200
    omega

/-- What tile t writes back is rows 2000·t … of the edge message of the four input arrays. -/
theorem flushed0_eq (wf : DotDims.WF Cert.Spec.SE Cert.Spec.SW Cert.Spec.SE [1] [0] [0] [1] [] [])
    (hb : Cert.Spec.SC.BroadcastsInDim Cert.Spec.SE (![0, 1] : Fin 2 → Fin Cert.Spec.SE.rank))
    (c : Dev nD) (t : Fin cfg0.N) :
    (dat0 (F := Ideal) V c).flushed 4 t = ((cfg0.win 4).blk t).view.read (Elt Ideal)
      (Cert.Spec.edgeMsg wf hb (V c main_v72) (V c main_v79) (V c main_v96) (V c main_arg7)) := by
  show (cfg0.win 4).cut (grid0.coords t) ((dat0 V c).after 4 t) = _
  rw [after0_4]
  unfold out0_4
  rw [View.canon_unit_zero hz]
  simp only [View.ld_unit_zero (S := S2000x200) hz, View.ld_unit_zero (S := S200x200) hz, View.ld_unit_zero (S := S2000x1) hz]
  funext j
  obtain ⟨p, q, rfl⟩ : ∃ (p : Fin 2000) (q : Fin 200), j = ix2 p q := ⟨j 0, j 1, eq_ix2 j⟩
  have hN : grid0.N = 200 := Gen.N_0
  have ht : t.val < grid0.N := t.isLt
  have h : 2000 * t.val + p.val < 400000 := by have := p.isLt; omega
  show k0_pay1 (iblk0 V c 0 t) (iblk0 V c 1 t) (iblk0 V c 3 t) (iblk0 V c 2 t) (ix2 p q) = _
  refine (pay0_apply (iblk0 V c 0 t) (iblk0 V c 1 t) (iblk0 V c 2 t) (iblk0 V c 3 t) p q).trans ?_
  refine Eq.trans ?_ (oblk0 t _ p q h).symm
  refine Eq.trans ?_ (Cert.Spec.edgeMsg_apply wf hb _ _ _ _ ⟨2000 * t.val + p.val, h⟩ q).symm
  refine congrArg₂ (· * ·) (Finset.sum_congr rfl fun k _ => ?_) (blk0_2 V c t p h)
  exact congrArg₂ (· * ·) (congrArg₂ (· - ·) (blk0_0 V c t p k h) (blk0_1 V c t p k h)) (blk0_3 V c t k q)

end Tiles0

/-- The first edge kernel's output array after its 200 tiles: the edge message of its four input arrays. -/
theorem arr0 (wf : DotDims.WF Cert.Spec.SE Cert.Spec.SW Cert.Spec.SE [1] [0] [0] [1] [] [])
    (hb : Cert.Spec.SC.BroadcastsInDim Cert.Spec.SE (![0, 1] : Fin 2 → Fin Cert.Spec.SE.rank))
    (V : (c : Dev nD) → (b : Ref sig .tc) → Buf (Elt Ideal) ((c : Thread nD τ).loc b)) (c : Dev nD) :
    (dat0 (F := Ideal) V c).arrAt 4 cfg0.N
      = Cert.Spec.edgeMsg wf hb (V c main_v72) (V c main_v79) (V c main_v96) (V c main_arg7) :=
  (dat0 (F := Ideal) V c).arrAt_eq_of_cover 4 (Cert.Spec.edgeMsg wf hb (V c main_v72) (V c main_v79) (V c main_v96) (V c main_arg7))
    (fun t _ => flushed0_eq V wf hb c t) cover0

/-! ## The tiles of the second edge kernel -/

/-- The index maps over the grid: tile t of each edge-indexed array is block (t, 0); the weight's block is (0, 0) at
    every tile. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Tiles1

variable (V : (c : Dev nD) → (b : Ref sig .tc) → Buf (Elt Ideal) ((c : Thread nD τ).loc b))

/-- Tile t of x is rows 2000·t … of x. -/
theorem blk1_0 (c : Dev nD) (t : Fin cfg1.N) (p : Fin 2000) (k : Fin 200) (h : 2000 * t.val + p.val < 400000) :
    (iblk1 V c 0 t : Vec Ideal S2000x200 .f32) (ix2 p k)
      = (V c main_v88 : Vec Ideal S400000x200 .f32) (ix2 ⟨2000 * t.val + p.val, h⟩ k) := by
  obtain ⟨e0, e1, -⟩ := idx_facts1 t
  unfold iblk1
  rw [View.read_apply]
  show V c main_v88 _ = V c main_v88 _
  congr 1
  funext a
  apply Fin.ext
  match a with
  | ⟨0, _⟩ => show win1_0.index t (0 : Fin 2) * 2000 + 1 * p.val = 2000 * t.val + p.val; omega
  | ⟨1, _⟩ => show win1_0.index t (1 : Fin 2) * 200 + 1 * k.val = k.val; omega

/-- Tile t of rel is rows 2000·t … of rel. -/
theorem blk1_1 (c : Dev nD) (t : Fin cfg1.N) (p : Fin 2000) (k : Fin 200) (h : 2000 * t.val + p.val < 400000) :
    (iblk1 V c 1 t : Vec Ideal S2000x200 .f32) (ix2 p k)
      = (V c main_v95 : Vec Ideal S400000x200 .f32) (ix2 ⟨2000 * t.val + p.val, h⟩ k) := by
  obtain ⟨-, -, e0, e1, -⟩ := idx_facts1 t
  unfold iblk1
  rw [View.read_apply]
  show V c main_v95 _ = V c main_v95 _
  congr 1
  funext a
  apply Fin.ext
  match a with
  | ⟨0, _⟩ => show win1_1.index t (0 : Fin 2) * 2000 + 1 * p.val = 2000 * t.val + p.val; omega
  | ⟨1, _⟩ => show win1_1.index t (1 : Fin 2) * 200 + 1 * k.val = k.val; omega

/-- Tile t of the norm column is rows 2000·t … of the column. -/
theorem blk1_2 (c : Dev nD) (t : Fin cfg1.N) (p : Fin 2000) (h : 2000 * t.val + p.val < 400000) :
    (iblk1 V c 2 t : Vec Ideal S2000x1 .f32) (ix2 p (0 : Fin 1))
      = (V c main_v98 : Vec Ideal S400000x1 .f32) (ix2 ⟨2000 * t.val + p.val, h⟩ (0 : Fin 1)) := by
  obtain ⟨-, -, -, -, e0, e1, -⟩ := idx_facts1 t
  unfold iblk1
  rw [View.read_apply]
  show V c main_v98 _ = V c main_v98 _
  congr 1
  funext a
  apply Fin.ext
  match a with
  | ⟨0, _⟩ => show win1_2.index t (0 : Fin 2) * 2000 + 1 * p.val = 2000 * t.val + p.val; omega
  | ⟨1, _⟩ => show win1_2.index t (1 : Fin 2) * 1 + 1 * 0 = 0; omega

/-- Every tile sees the whole weight. -/
theorem blk1_3 (c : Dev nD) (t : Fin cfg1.N) (k q : Fin 200) :
    (iblk1 V c 3 t : Vec Ideal S200x200 .f32) (ix2 k q) = (V c main_arg8 : Vec Ideal S200x200 .f32) (ix2 k q) := by
  obtain ⟨-, -, -, -, -, -, e0, e1, -⟩ := idx_facts1 t
  unfold iblk1
  rw [View.read_apply]
  show V c main_arg8 _ = V c main_arg8 _
  congr 1
  funext a
  apply Fin.ext
  match a with
  | ⟨0, _⟩ => show win1_3.index t (0 : Fin 2) * 200 + 1 * k.val = k.val; omega
  | ⟨1, _⟩ => show win1_3.index t (1 : Fin 2) * 200 + 1 * q.val = q.val; omega

/-- Tile t of an edge-indexed array, read through the output's window, is rows 2000·t … of it. -/
theorem oblk1 (t : Fin cfg1.N) (G : Vec Ideal S400000x200 .f32) (p : Fin 2000) (q : Fin 200)
    (h : 2000 * t.val + p.val < 400000) :
    (((cfg1.win 4).blk t).view.read (Elt Ideal) G : Vec Ideal S2000x200 .f32) (ix2 p q)
      = G (ix2 ⟨2000 * t.val + p.val, h⟩ q) := by
  obtain ⟨-, -, -, -, -, -, -, -, e0, e1⟩ := idx_facts1 t
  rw [View.read_apply]
  show G _ = G _
  congr 1
  funext a
  apply Fin.ext
  match a with
  | ⟨0, _⟩ => show win1_4.index t (0 : Fin 2) * 2000 + 1 * p.val = 2000 * t.val + p.val; omega
  | ⟨1, _⟩ => show win1_4.index t (1 : Fin 2) * 200 + 1 * q.val = q.val; omega

/-- A row of the output array is in tile t iff each coordinate is in the tile's range on its axis. -/
theorem mem_blk1 (t : Fin cfg1.N) (i : S400000x200.Idx) :
    i ∈ ((cfg1.win 4).blk t).view.set ↔ ∀ a : Fin 2, win1_4.index t a * S2000x200.size a ≤ (i a).val ∧ (i a).val < win1_4.index t a * S2000x200.size a + S2000x200.size a := by
  show i ∈ ((View.whole main_v99).slice (win1_4.rect t)).set ↔ _
  rw [View.set_slice_whole, Rect.mem_set_unit]
  exact Iff.rfl

/-- The 200 tiles cover the output: row r is in tile r / 2000. -/
theorem cover1 (i : S400000x200.Idx) :
    ∃ t : Fin cfg1.N, (cfg1.win 4).flush t = true ∧ i ∈ ((cfg1.win 4).blk t).view.set := by
  have hN : grid1.N = 200 := Gen.N_1
  have hi0 : (i 0).val < 400000 := (i 0).isLt
  have hi1 : (i 1).val < 200 := (i 1).isLt
  have ht : (i 0).val / 2000 < cfg1.N := by show (i 0).val / 2000 < grid1.N; omega
  obtain ⟨-, -, -, -, -, -, -, -, e0, e1⟩ := idx_facts1 ⟨(i 0).val / 2000, ht⟩
  have e0' : win1_4.index ⟨(i 0).val / 2000, ht⟩ (0 : Fin 2) = (i 0).val / 2000 := e0
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 200 ≤ (i 1).val
      ∧ (i 1).val < win1_4.index ⟨(i 0).val / 2000, ht⟩ (1 : Fin 2) * 200 + 200
    omega

/-- What tile t writes back is rows 2000·t … of the edge message of the four input arrays. -/
theorem flushed1_eq (wf : DotDims.WF Cert.Spec.SE Cert.Spec.SW Cert.Spec.SE [1] [0] [0] [1] [] [])
    (hb : Cert.Spec.SC.BroadcastsInDim Cert.Spec.SE (![0, 1] : Fin 2 → Fin Cert.Spec.SE.rank))
    (c : Dev nD) (t : Fin cfg1.N) :
    (dat1 (F := Ideal) V c).flushed 4 t = ((cfg1.win 4).blk t).view.read (Elt Ideal)
      (Cert.Spec.edgeMsg wf hb (V c main_v88) (V c main_v95) (V c main_v98) (V c main_arg8)) := by
  show (cfg1.win 4).cut (grid1.coords t) ((dat1 V c).after 4 t) = _
  rw [after1_4]
  unfold out1_4
  rw [View.canon_unit_zero hz]
  simp only [View.ld_unit_zero (S := S2000x200) hz, View.ld_unit_zero (S := S200x200) hz, View.ld_unit_zero (S := S2000x1) hz]
  funext j
  obtain ⟨p, q, rfl⟩ : ∃ (p : Fin 2000) (q : Fin 200), j = ix2 p q := ⟨j 0, j 1, eq_ix2 j⟩
  have hN : grid1.N = 200 := Gen.N_1
  have ht : t.val < grid1.N := t.isLt
  have h : 2000 * t.val + p.val < 400000 := by have := p.isLt; omega
  show k1_pay1 (iblk1 V c 0 t) (iblk1 V c 1 t) (iblk1 V c 3 t) (iblk1 V c 2 t) (ix2 p q) = _
  refine (pay1_apply (iblk1 V c 0 t) (iblk1 V c 1 t) (iblk1 V c 2 t) (iblk1 V c 3 t) p q).trans ?_
  refine Eq.trans ?_ (oblk1 t _ p q h).symm
  refine Eq.trans ?_ (Cert.Spec.edgeMsg_apply wf hb _ _ _ _ ⟨2000 * t.val + p.val, h⟩ q).symm
  refine congrArg₂ (· * ·) (Finset.sum_congr rfl fun k _ => ?_) (blk1_2 V c t p h)
  exact congrArg₂ (· * ·) (congrArg₂ (· - ·) (blk1_0 V c t p k h) (blk1_1 V c t p k h)) (blk1_3 V c t k q)

end Tiles1

/-- The second edge kernel's output array after its 200 tiles: the edge message of its four input arrays. -/
theorem arr1 (wf : DotDims.WF Cert.Spec.SE Cert.Spec.SW Cert.Spec.SE [1] [0] [0] [1] [] [])
    (hb : Cert.Spec.SC.BroadcastsInDim Cert.Spec.SE (![0, 1] : Fin 2 → Fin Cert.Spec.SE.rank))
    (V : (c : Dev nD) → (b : Ref sig .tc) → Buf (Elt Ideal) ((c : Thread nD τ).loc b)) (c : Dev nD) :
    (dat1 (F := Ideal) V c).arrAt 4 cfg1.N
      = Cert.Spec.edgeMsg wf hb (V c main_v88) (V c main_v95) (V c main_v98) (V c main_arg8) :=
  (dat1 (F := Ideal) V c).arrAt_eq_of_cover 4 (Cert.Spec.edgeMsg wf hb (V c main_v88) (V c main_v95) (V c main_v98) (V c main_arg8))
    (fun t _ => flushed1_eq V wf hb c t) cover1

end Cert.KernelIdeal.EdgeValue

end
-- ==== Proof.NodeValue.lean ====
/-
  The node update, tile by tile.

  The third region computes, for each block of 2000 nodes, tanh of a third of the two aggregated messages plus the
  self-loop product (x − ℓ) · w, and writes the block back into its rows of the result. Read at an index the stored
  tile is the whole-array node update at that row and channel; the fifty blocks tile the 100000 rows, so after the
  region the result array is the node update of the arrays the region found.
-/
import proofs.«159541_j86045374808383_1_alg».proof.Proof.Gen.KernelIdeal.Frame
import proofs.«159541_j86045374808383_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The node kernel's stored tile at row p and channel q: tanh of a third of the two aggregates' entries plus the
    row x_p − ℓ times column q of the weight. -/
theorem pay_apply (x0 x1 x2 : Vec Ideal S2000x200 .f32) (x3 : Vec Ideal S1x200 .f32) (x4 : Vec Ideal S200x200 .f32)
    (p : Fin 2000) (q : Fin 200) :
    k2_pay1 x0 x3 x4 x1 x2 (ix2 p q)
      = Ideal.tanh ((x1 (ix2 p q) + x2 (ix2 p q) + ∑ k : Fin 200, (x0 (ix2 p k) - x3 (ix2 (0 : Fin 1) k)) * x4 (ix2 k q))
          * Ideal.ofBits .f32 0x3EAAAAAB#32) := by
  unfold k2_pay1
  rw [shapeCast_self, shapeCast_self]
  show Ideal.tanh ((x1 (ix2 p q) + x2 (ix2 p q)
      + matmul (F := Ideal) dot_S2000x200_S200x200_S2000x200_1_0_0_1_n_n none
          (truncf FTy.bf16 (subf x0 (broadcastTo S2000x200 x3 broadcasts_S1x200_S2000x200)) bitsLt_bf16_f32)
          (truncf FTy.bf16 x4 bitsLt_bf16_f32) (constant S2000x200 FTy.f32 0x00000000#32) (ix2 p q))
      * Ideal.ofBits .f32 0x3EAAAAAB#32) = _
  refine congrArg (fun s => Ideal.tanh ((x1 (ix2 p q) + x2 (ix2 p q) + s) * Ideal.ofBits .f32 0x3EAAAAAB#32)) ?_
  refine (Cert.Lib.matmul2_zero_apply dot_S2000x200_S200x200_S2000x200_1_0_0_1_n_n.wf _ _ p q).trans ?_
  refine Finset.sum_congr rfl fun k _ => ?_
  show (x0 (ix2 p k) - broadcastTo S2000x200 x3 broadcasts_S1x200_S2000x200 (ix2 p k)) * x4 (ix2 k q) = _
  rw [broadcastTo_1b_ab_apply]

/-- A block offset written as a pair of zeros is the zero offset. -/
theorem hz : (![0, 0] : Fin 2 → Nat) = fun _ => 0 := funext fun a => by fin_cases a <;> rfl

/-- The index maps over the grid: the four tiled windows sit at row block t, column block 0; the self-loop row and the
    weight are their whole arrays at every point. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

section Blocks
variable (V : (c : Dev nD) → (b : Ref sig .tc) → Buf (Elt Ideal) ((c : Thread nD τ).loc b)) (c : Dev nD) (t : Fin cfg2.N)

/-- The x tile at point t is rows 2000 t … 2000 t + 1999 of x. -/
theorem blk_x (p : Fin 2000) (k : Fin 200) (hr : 2000 * t.val + p.val < 100000) :
    (iblk2 V c 0 t : Vec Ideal S2000x200 .f32) (ix2 p k)
      = (V c main_arg0 : S100000x200.Idx → EReal) (ix2 (⟨2000 * t.val + p.val, hr⟩ : Fin 100000) k) := by
  obtain ⟨⟨e0, e1⟩, -⟩ := idx_facts t
  show V c main_arg0 (((cfg2.win 0).blk t).view.emb (ix2 p k)) = _
  refine congrArg (V c main_arg0) (funext fun a => Fin.ext ?_)
  match a with
  | ⟨0, _⟩ => show win2_0.index t (0 : Fin 2) * 2000 + 1 * p.val = 2000 * t.val + p.val; omega
  | ⟨1, _⟩ => show win2_0.index t (1 : Fin 2) * 200 + 1 * k.val = k.val; omega

/-- The in-aggregate's tile at point t is the same rows of the in-aggregate. -/
theorem blk_in (p : Fin 2000) (k : Fin 200) (hr : 2000 * t.val + p.val < 100000) :
    (iblk2 V c 1 t : Vec Ideal S2000x200 .f32) (ix2 p k)
      = (V c main_v104 : S100000x200.Idx → EReal) (ix2 (⟨2000 * t.val + p.val, hr⟩ : Fin 100000) k) := by
  obtain ⟨-, ⟨e0, e1⟩, -⟩ := idx_facts t
  show V c main_v104 (((cfg2.win 1).blk t).view.emb (ix2 p k)) = _
  refine congrArg (V c main_v104) (funext fun a => Fin.ext ?_)
  match a with
  | ⟨0, _⟩ => show win2_1.index t (0 : Fin 2) * 2000 + 1 * p.val = 2000 * t.val + p.val; omega
  | ⟨1, _⟩ => show win2_1.index t (1 : Fin 2) * 200 + 1 * k.val = k.val; omega

/-- The out-aggregate's tile at point t is the same rows of the out-aggregate. -/
theorem blk_out (p : Fin 2000) (k : Fin 200) (hr : 2000 * t.val + p.val < 100000) :
    (iblk2 V c 2 t : Vec Ideal S2000x200 .f32) (ix2 p k)
      = (V c main_v109 : S100000x200.Idx → EReal) (ix2 (⟨2000 * t.val + p.val, hr⟩ : Fin 100000) k) := by
  obtain ⟨-, -, ⟨e0, e1⟩, -⟩ := idx_facts t
  show V c main_v109 (((cfg2.win 2).blk t).view.emb (ix2 p k)) = _
  refine congrArg (V c main_v109) (funext fun a => Fin.ext ?_)
  match a with
  | ⟨0, _⟩ => show win2_2.index t (0 : Fin 2) * 2000 + 1 * p.val = 2000 * t.val + p.val; omega
  | ⟨1, _⟩ => show win2_2.index t (1 : Fin 2) * 200 + 1 * k.val = k.val; omega

/-- The self-loop row's block at every point is the whole row. -/
theorem blk_loop (z : Fin 1) (k : Fin 200) :
    (iblk2 V c 3 t : Vec Ideal S1x200 .f32) (ix2 z k) = (V c main_arg6 : S1x200.Idx → EReal) (ix2 z k) := by
  obtain ⟨-, -, -, ⟨e0, e1⟩, -⟩ := idx_facts t
  show V c main_arg6 (((cfg2.win 3).blk t).view.emb (ix2 z k)) = _
  refine congrArg (V c main_arg6) (funext fun a => Fin.ext ?_)
  match a with
  | ⟨0, _⟩ => show win2_3.index t (0 : Fin 2) * 1 + 1 * z.val = z.val; omega
  | ⟨1, _⟩ => show win2_3.index t (1 : Fin 2) * 200 + 1 * k.val = k.val; omega

/-- The weight's block at every point is the whole weight. -/
theorem blk_w (k : Fin 200) (q : Fin 200) :
    (iblk2 V c 4 t : Vec Ideal S200x200 .f32) (ix2 k q) = (V c main_arg9 : S200x200.Idx → EReal) (ix2 k q) := by
  obtain ⟨-, -, -, -, ⟨e0, e1⟩, -⟩ := idx_facts t
  show V c main_arg9 (((cfg2.win 4).blk t).view.emb (ix2 k q)) = _
  refine congrArg (V c main_arg9) (funext fun a => Fin.ext ?_)
  match a with
  | ⟨0, _⟩ => show win2_4.index t (0 : Fin 2) * 200 + 1 * k.val = k.val; omega
  | ⟨1, _⟩ => show win2_4.index t (1 : Fin 2) * 200 + 1 * q.val = q.val; omega

/-- A whole-array function read through the result's block at point t is read at rows 2000 t … 2000 t + 1999. -/
theorem blk_res (G : S100000x200.Idx → EReal) (p : Fin 2000) (q : Fin 200) (hr : 2000 * t.val + p.val < 100000) :
    (((cfg2.win 5).blk t).view.read (Elt Ideal) G : Vec Ideal S2000x200 .f32) (ix2 p q)
      = G (ix2 (⟨2000 * t.val + p.val, hr⟩ : Fin 100000) q) := by
  obtain ⟨-, -, -, -, -, ⟨e0, e1⟩⟩ := idx_facts t
  show G (((cfg2.win 5).blk t).view.emb (ix2 p q)) = _
  refine congrArg G (funext fun a => Fin.ext ?_)
  match a with
  | ⟨0, _⟩ => show win2_5.index t (0 : Fin 2) * 2000 + 1 * p.val = 2000 * t.val + p.val; omega
  | ⟨1, _⟩ => show win2_5.index t (1 : Fin 2) * 200 + 1 * q.val = q.val; omega

end Blocks

/-- Two node updates with the same aggregates and scale agree when their self-loop products agree. -/
theorem tanh_scaled_congr {a b s s' κ : EReal} (h : s = s') :
    Ideal.tanh ((a + b + s) * κ) = Ideal.tanh ((a + b + s') * κ) := by rw [h]

section Array
variable (wf : DotDims.WF Cert.Spec.SN Cert.Spec.SW Cert.Spec.SN [1] [0] [0] [1] [] [])
    (hbl : Cert.Spec.SL.BroadcastsInDim Cert.Spec.SN (![0, 1] : Fin 2 → Fin Cert.Spec.SN.rank))
    (hb0 : Cert.Spec.S0.BroadcastsInDim Cert.Spec.SN (![] : Fin 0 → Fin Cert.Spec.SN.rank))
    (V : (c : Dev nD) → (b : Ref sig .tc) → Buf (Elt Ideal) ((c : Thread nD τ).loc b)) (c : Dev nD)

/-- What point t writes back is block t of the node update of the arrays the region found. -/
theorem flushed_eq (t : Fin cfg2.N) :
    (dat2 (F := Ideal) V c).flushed 5 t
      = ((cfg2.win 5).blk t).view.read (Elt Ideal)
          (Cert.Spec.combine wf hbl hb0 (V c main_arg0) (V c main_v104) (V c main_v109) (V c main_arg6) (V c main_arg9)) := by
  show (cfg2.win 5).cut (grid2.coords t) ((dat2 V c).after 5 t) = _
  rw [after2_5]
  unfold out2_5
  rw [View.canon_unit_zero hz]
  simp only [View.ld_unit_zero (S := S2000x200) hz, View.ld_unit_zero (S := S1x200) hz, View.ld_unit_zero (S := S200x200) hz]
  funext j
  obtain ⟨p, q, rfl⟩ : ∃ (p : Fin 2000) (q : Fin 200), j = ix2 p q := ⟨j 0, j 1, eq_ix2 j⟩
  have hN : grid2.N = 50 := N_2
  have ht : t.val < grid2.N := t.isLt
  have hp : p.val < 2000 := p.isLt
  have hr : 2000 * t.val + p.val < 100000 := by omega
  show k2_pay1 (iblk2 V c 0 t) (iblk2 V c 3 t) (iblk2 V c 4 t) (iblk2 V c 1 t) (iblk2 V c 2 t) (ix2 p q) = _
  refine (pay_apply (iblk2 V c 0 t) (iblk2 V c 1 t) (iblk2 V c 2 t) (iblk2 V c 3 t) (iblk2 V c 4 t) p q).trans ?_
  refine Eq.trans ?_ (blk_res t _ p q hr).symm
  refine Eq.trans ?_ (Cert.Spec.combine_apply wf hbl hb0 _ _ _ _ _ (⟨2000 * t.val + p.val, hr⟩ : Fin 100000) q).symm
  rw [blk_in V c t p q hr, blk_out V c t p q hr]
  refine tanh_scaled_congr ?_
  refine Finset.sum_congr rfl fun k _ => ?_
  rw [blk_x V c t p k hr, blk_loop V c t (0 : Fin 1) k, blk_w V c t k q]

end Array

/-- An index of the result is in point t's block iff each coordinate is in the block's range on its axis. -/
theorem mem_blk (t : Fin cfg2.N) (i : S100000x200.Idx) :
    i ∈ ((cfg2.win 5).blk t).view.set ↔ ∀ a : Fin 2, win2_5.index t a * S2000x200.size a ≤ (i a).val
      ∧ (i a).val < win2_5.index t a * S2000x200.size a + S2000x200.size a := by
  show i ∈ ((View.whole main_v110).slice (win2_5.rect t)).set ↔ _
  rw [View.set_slice_whole, Rect.mem_set_unit]
  exact Iff.rfl

/-- The fifty blocks tile the rows: row r is in the block of point r / 2000, and every point writes its block back. -/
theorem cover (i : S100000x200.Idx) :
    ∃ t : Fin cfg2.N, (cfg2.win 5).flush t = true ∧ i ∈ ((cfg2.win 5).blk t).view.set := by
  have hN : grid2.N = 50 := N_2
  have hi0 : (i 0).val < 100000 := (i 0).isLt
  have hi1 : (i 1).val < 200 := (i 1).isLt
  have hlt : (i 0).val / 2000 < grid2.N := by omega
  obtain ⟨t0, ht0⟩ : ∃ t0 : Fin cfg2.N, t0.val = (i 0).val / 2000 := ⟨⟨(i 0).val / 2000, hlt⟩, rfl⟩
  refine ⟨t0, flush2_5 t0, ?_⟩
  rw [mem_blk]
  obtain ⟨-, -, -, -, -, ⟨e0, e1⟩⟩ := idx_facts t0
  intro a
  match a with
  | ⟨0, _⟩ =>
    show win2_5.index t0 (0 : Fin 2) * 2000 ≤ (i 0).val ∧ (i 0).val < win2_5.index t0 (0 : Fin 2) * 2000 + 2000
    omega
  | ⟨1, _⟩ =>
    show win2_5.index t0 (1 : Fin 2) * 200 ≤ (i 1).val ∧ (i 1).val < win2_5.index t0 (1 : Fin 2) * 200 + 200
    omega

/-- After the third region the result array is the node update of the arrays the region found. -/
theorem arr2 (wf : DotDims.WF Cert.Spec.SN Cert.Spec.SW Cert.Spec.SN [1] [0] [0] [1] [] [])
    (hbl : Cert.Spec.SL.BroadcastsInDim Cert.Spec.SN (![0, 1] : Fin 2 → Fin Cert.Spec.SN.rank))
    (hb0 : Cert.Spec.S0.BroadcastsInDim Cert.Spec.SN (![] : Fin 0 → Fin Cert.Spec.SN.rank))
    (V : (c : Dev nD) → (b : Ref sig .tc) → Buf (Elt Ideal) ((c : Thread nD τ).loc b)) (c : Dev nD) :
    (dat2 (F := Ideal) V c).arrAt 5 cfg2.N
      = Cert.Spec.combine wf hbl hb0 (V c main_arg0) (V c main_v104) (V c main_v109) (V c main_arg6) (V c main_arg9) :=
  (dat2 (F := Ideal) V c).arrAt_eq_of_cover 5
    (Cert.Spec.combine wf hbl hb0 (V c main_arg0) (V c main_v104) (V c main_v109) (V c main_arg6) (V c main_arg9))
    (fun t _ => flushed_eq wf hbl hb0 V c t) cover

end Cert.KernelIdeal.NodeValue

end
-- ==== Proof.LibColumnCast.lean ====
/- A general layout fact: a vector stood up as a one-column matrix, read at an index. -/
import Idealize.ShloMosaic.Lib.Pipeline.Value
import Idealize.ShloMosaic.Lib.ValueIdx

namespace Cert.Lib

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib
-- ==== Proof.LibColumnForms.lean ====
/- A general layout fact: a vector stood up as a one-column matrix, by a reshape or by a broadcast along a new unit axis. -/
import Idealize.ShloMosaic.Lib.Pipeline.Value
import Idealize.ShloMosaic.Lib.ValueIdx
import proofs.«159541_j86045374808383_1_alg».proof.Proof.LibColumnCast

namespace Cert.Lib

open Idealize.ShloMosaic Idealize.ShloMosaic.ValueIdx

/-- An `[a]` array reshaped to `[a, 1]` is the array broadcast to `[a, 1]` with its axis sent to axis 0: both read, at
    `(i, u)`, the operand at `i`. -/
theorem column_cast_eq_broadcast {α : Type} {a : ℕ} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ v h = broadcastInDim ⟨2, ![a, 1]⟩ ![0] h' v := by
  funext j
  obtain ⟨r, u, rfl⟩ : ∃ (r : Fin a) (u : Fin 1), j = ix2 r u := ⟨j 0, j 1, eq_ix2 j⟩
  rw [shapeCast_a_a1_apply v h r u]
  refine (broadcastInDim_apply _ h' v (ix2 r u) (ix1 r) fun ax => ?_).symm
  match ax with
  | ⟨0, _⟩ =>
    show r.val = if a = 1 then 0 else r.val
    split
    · have := r.isLt; omega
    · rfl

end Cert.Lib
-- ==== Proof.KernelValue.lean ====
/-
  The kernel program's two results as the reference's stages of the argument arrays.

  The node features that come out of the last region are, entry by entry, the node update of Spec.lean applied to the
  node features, the two aggregates and the self-loop weights; each aggregate is the scatter-sum, into the head nodes, of
  a region's edge messages; and the edge messages are Spec.lean's, of the gathered node rows, the gathered relation rows,
  the norm column and the direction's weight. Spelt with the reference's stage names these are the reference's own
  expressions, except that the kernel program stands a norm vector up as a column by a reshape where the reference
  broadcasts it: the same column. The relation output is the reference's product of the relation embeddings with the
  relation weight, computed by the same host operation.
-/
import proofs.«159541_j86045374808383_1_alg».proof.Proof.KernelFold
import proofs.«159541_j86045374808383_1_alg».proof.Proof.EdgeValue
import proofs.«159541_j86045374808383_1_alg».proof.Proof.NodeValue
import proofs.«159541_j86045374808383_1_alg».proof.Proof.Spec
import proofs.«159541_j86045374808383_1_alg».proof.Proof.LibColumnForms

set_option maxRecDepth 16384

noncomputable section

namespace Cert.KernelIdeal.Results

open Cert.KernelIdeal Cert.KernelIdeal.Gen Cert.KernelIdeal.Fold
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The relation output: the relation embeddings times the relation weight. -/
theorem relations : @Eq (FVec Ideal Cert.ReferenceIdeal.S475x200 .f32) (W11 m ρ c (Proc.devRef .tc main_v111))
      (Cert.ReferenceIdeal.ReadP.val_main_v124 (F := Ideal) (m ((c : Thread nD τ).loc main_arg3)) (m ((c : Thread nD τ).loc main_arg4)) (m ((c : Thread nD τ).loc main_arg5)) (m ((c : Thread nD τ).loc main_arg6))) :=
  W11_v111 m ρ c

/-- The node output: the node update of the two scattered message arrays. -/
theorem nodes : @Eq (FVec Ideal Cert.ReferenceIdeal.S100000x200 .f32) (W11 m ρ c (Proc.devRef .tc main_v110))
      (Cert.ReferenceIdeal.ReadP.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) := by
  rw [W11_v110, Cert.KernelIdeal.NodeValue.arr2 Cert.ReferenceIdeal.Facts₀.dot_S100000x200_S200x200_S100000x200_1_0_0_1_n_n_wf
    Cert.ReferenceIdeal.Facts₀.bcast_S1x200_S100000x200_0_1 Cert.ReferenceIdeal.Facts₀.bcast_S_S100000x200 (V9 m ρ) c]
  dsimp only [V9]
  rw [W9_arg0, W9_arg6, W9_arg9, W9_v104, W9_v109, W8_v97, W8_v99,
    Cert.KernelIdeal.EdgeValue.arr0 Cert.ReferenceIdeal.Facts₀.dot_S400000x200_S200x200_S400000x200_1_0_0_1_n_n_wf Cert.ReferenceIdeal.Facts₀.bcast_S400000x1_S400000x200_0_1 (V5 m ρ) c,
    Cert.KernelIdeal.EdgeValue.arr1 Cert.ReferenceIdeal.Facts₀.dot_S400000x200_S200x200_S400000x200_1_0_0_1_n_n_wf Cert.ReferenceIdeal.Facts₀.bcast_S400000x1_S400000x200_0_1 (V7 m ρ) c]
  dsimp only [V5, V7]
  rw [W5_v72, W5_v79, W5_v96, W5_arg7, W7_v88, W7_v95, W7_v98, W7_arg8,
    Cert.Lib.column_cast_eq_broadcast _ _ Cert.ReferenceIdeal.Facts₀.bcast_S400000_S400000x1_0, Cert.Lib.column_cast_eq_broadcast _ _ Cert.ReferenceIdeal.Facts₀.bcast_S400000_S400000x1_0]
  rfl

end Cert.KernelIdeal.Results

end
-- ==== Proof.lean ====
/-
  A relational graph convolution layer (composition by subtraction, basis-decomposed relation embeddings): the tiled
  kernel program against the array program, as exact extended-real computations.

  Both programs build the relation embeddings (relation weights × basis vectors, with the self-loop relation appended),
  cut the edge list into its two directions, and give every edge the norm deg(head)^(-1/2) · deg(tail)^(-1/2). For each
  direction an edge's message is ((x_tail − rel_type) · W) scaled by the edge's norm; the messages are summed into their
  head nodes; and a node's new features are tanh of the f32 nearest a third times (in-aggregate + out-aggregate +
  (x − self-loop relation) · W_loop). The kernel program computes the messages and the node update in tiles of 2000
  rows, its matrix products on operands rounded to a narrower format — a rounding that is the identity on exact values —,
  and the array program computes them array by array: entry by entry the same sums of the same products, so no
  finiteness of the inputs is used. The second result, relation embeddings × relation weight, is one and the same host
  product in both.

  Proof/Spec.lean states the two tile computations for whole arrays; Proof/EdgeValue.lean and Proof/NodeValue.lean show
  that the regions' arrays hold them; Proof/KernelFold.lean reads the kernel program's host stretches as the reference's
  stages; Proof/KernelValue.lean joins them; Proof/KernelRun.lean is the kernel program's run with its results named.
-/
import proofs.«159541_j86045374808383_1_alg».proof.Defs
import proofs.«159541_j86045374808383_1_alg».proof.Proof.Gen.Kernel
import proofs.«159541_j86045374808383_1_alg».proof.Proof.Gen.Kernel.Skeleton
import proofs.«159541_j86045374808383_1_alg».proof.Proof.Gen.Kernel.Launch
import proofs.«159541_j86045374808383_1_alg».proof.Proof.Gen.Kernel.Points
import proofs.«159541_j86045374808383_1_alg».proof.Proof.Gen.Kernel.Frame
import proofs.«159541_j86045374808383_1_alg».proof.Proof.Gen.KernelIdeal
import proofs.«159541_j86045374808383_1_alg».proof.Proof.Gen.KernelIdeal.Skeleton
import proofs.«159541_j86045374808383_1_alg».proof.Proof.Gen.KernelIdeal.Launch
import proofs.«159541_j86045374808383_1_alg».proof.Proof.Gen.KernelIdeal.Points
import proofs.«159541_j86045374808383_1_alg».proof.Proof.Gen.KernelIdeal.Frame
import proofs.«159541_j86045374808383_1_alg».proof.Proof.Gen.ReferenceIdeal
import proofs.«159541_j86045374808383_1_alg».proof.Proof.Gen.Pre_finite_inputs
import proofs.«159541_j86045374808383_1_alg».proof.Proof.RefRun
import proofs.«159541_j86045374808383_1_alg».proof.Proof.RefRead
import proofs.«159541_j86045374808383_1_alg».proof.Proof.KernelRun
import proofs.«159541_j86045374808383_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- The idealization rewrote no operation. -/
theorem preserves : Cert.preserves_Kernel_KernelIdeal := trivial

/-- Both programs end with the reference's two stages of the (agreeing) argument arrays in their result buffers. -/
theorem algebraic : Cert.algebraic_KernelIdeal_ReferenceIdeal := by
  intro m ρ m' ρ' _ hagree
  refine ⟨fun c => Cert.KernelIdeal.Gen.W11 m ρ c (Proc.devRef .tc Cert.KernelIdeal.main_v110),
    fun c => Cert.KernelIdeal.Gen.W11 m ρ c (Proc.devRef .tc Cert.KernelIdeal.main_v111),
    Cert.KernelIdeal.RunValue.run_results m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · obtain ⟨g0, g1, g2, g3, g4, g5, g6, g7, g8, g9⟩ := hagree c
    rw [Cert.ReferenceIdeal.ReadP.val_main_v123_eq, g0, g1, g2, g3, g4, g6, g7, g8, g9]
    exact (Cert.KernelIdeal.Results.nodes m ρ c).symm
  · obtain ⟨g0, g1, g2, g3, g4, g5, g6, g7, g8, g9⟩ := hagree c
    rw [Cert.ReferenceIdeal.ReadP.val_main_v124_eq, g3, g4, g5, g6]
    exact (Cert.KernelIdeal.Results.relations m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
